-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S320000x2 : Shape := ⟨2, ![320000, 2]⟩
abbrev S128x128 : Shape := ⟨2, ![128, 128]⟩
abbrev S256x1 : Shape := ⟨2, ![256, 1]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S256x1 : S_.BroadcastsInDim S256x1 (![] : Fin 0 → Fin S256x1.rank)
  reducesTo_S256x1_S_d0_1 : S256x1.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : IVec S320000x2 32) (main_arg2 : FVec F S128x128 .f32) (main_arg3 : FVec F S256x1 .f32) (main_arg4 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S256x1 .f32 := Host.absf main_arg3
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S320000x2 : Shape := ⟨2, ![320000, 2]⟩
abbrev S128x128 : Shape := ⟨2, ![128, 128]⟩
abbrev S256x1 : Shape := ⟨2, ![256, 1]⟩
abbrev S128 : Shape := ⟨1, ![128]⟩
abbrev S320000x1 : Shape := ⟨2, ![320000, 1]⟩
abbrev S320000 : Shape := ⟨1, ![320000]⟩
abbrev S2000x128 : Shape := ⟨2, ![2000, 128]⟩
abbrev S_ : Shape := ⟨0, ![]⟩
abbrev S320000x2x1 : Shape := ⟨3, ![320000, 2, 1]⟩
abbrev S320000x2x128 : Shape := ⟨3, ![320000, 2, 128]⟩
abbrev S320000x256 : Shape := ⟨2, ![320000, 256]⟩
abbrev S4000x256 : Shape := ⟨2, ![4000, 256]⟩
abbrev S4000x1 : Shape := ⟨2, ![4000, 1]⟩
abbrev S10000x1 : Shape := ⟨2, ![10000, 1]⟩
abbrev S10000x10000 : Shape := ⟨2, ![10000, 10000]⟩
abbrev S320000x1x128 : Shape := ⟨3, ![320000, 1, 128]⟩
abbrev S320000x128 : Shape := ⟨2, ![320000, 128]⟩
abbrev S4000x128 : Shape := ⟨2, ![4000, 128]⟩
abbrev S1x128 : Shape := ⟨2, ![1, 128]⟩

abbrev nBuf : Space → Nat
  | .hbm => 105
  | .vmem => 21
  | .smem => 0
  | _ => 0

abbrev bufTy : (tb : Table) → Fin (tcTables nBuf tb) → BufTy
  | .hbm, ⟨0, _⟩ => ⟨S10000x128, .f32⟩
  | .hbm, ⟨1, _⟩ => ⟨S320000x2, .i32⟩
  | .hbm, ⟨2, _⟩ => ⟨S128x128, .f32⟩
  | .hbm, ⟨3, _⟩ => ⟨S256x1, .f32⟩
  | .hbm, ⟨4, _⟩ => ⟨S128, .f32⟩
  | .hbm, ⟨5, _⟩ => ⟨S320000x1, .i32⟩
  | .hbm, ⟨6, _⟩ => ⟨S320000, .i32⟩
  | .hbm, ⟨7, _⟩ => ⟨S320000x1, .i32⟩
  | .hbm, ⟨8, _⟩ => ⟨S320000, .i32⟩
  | .hbm, ⟨9, _⟩ => ⟨S10000x128, .f32⟩
  | .hbm, ⟨10, _⟩ => ⟨S_, .i32⟩
  | .hbm, ⟨11, _⟩ => ⟨S320000x2, .i32⟩
  | .hbm, ⟨12, _⟩ => ⟨S320000x2, .i1⟩
  | .hbm, ⟨13, _⟩ => ⟨S_, .i32⟩
  | .hbm, ⟨14, _⟩ => ⟨S320000x2, .i32⟩
  | .hbm, ⟨15, _⟩ => ⟨S320000x2, .i32⟩
  | .hbm, ⟨16, _⟩ => ⟨S320000x2, .i32⟩
  | .hbm, ⟨17, _⟩ => ⟨S320000x2x1, .i32⟩
  | .hbm, ⟨18, _⟩ => ⟨S320000x2x128, .f32⟩
  | .hbm, ⟨19, _⟩ => ⟨S320000x256, .f32⟩
  | .hbm, ⟨20, _⟩ => ⟨S320000x1, .f32⟩
  | .hbm, ⟨21, _⟩ => ⟨S_, .f32⟩
  | .hbm, ⟨22, _⟩ => ⟨S10000x1, .f32⟩
  | .hbm, ⟨23, _⟩ => ⟨S_, .i32⟩
  | .hbm, ⟨24, _⟩ => ⟨S320000, .i32⟩
  | .hbm, ⟨25, _⟩ => ⟨S320000, .i1⟩
  | .hbm, ⟨26, _⟩ => ⟨S_, .i32⟩
  | .hbm, ⟨27, _⟩ => ⟨S320000, .i32⟩
  | .hbm, ⟨28, _⟩ => ⟨S320000, .i32⟩
  | .hbm, ⟨29, _⟩ => ⟨S320000, .i32⟩
  | .hbm, ⟨30, _⟩ => ⟨S320000x1, .i32⟩
  | .hbm, ⟨31, _⟩ => ⟨S10000x1, .f32⟩
  | .hbm, ⟨32, _⟩ => ⟨S_, .i32⟩
  | .hbm, ⟨33, _⟩ => ⟨S320000, .i32⟩
  | .hbm, ⟨34, _⟩ => ⟨S320000, .i1⟩
  | .hbm, ⟨35, _⟩ => ⟨S_, .i32⟩
  | .hbm, ⟨36, _⟩ => ⟨S320000, .i32⟩
  | .hbm, ⟨37, _⟩ => ⟨S320000, .i32⟩
  | .hbm, ⟨38, _⟩ => ⟨S320000, .i32⟩
  | .hbm, ⟨39, _⟩ => ⟨S320000x1, .i32⟩
  | .hbm, ⟨40, _⟩ => ⟨S320000x1, .f32⟩
  | .hbm, ⟨41, _⟩ => ⟨S_, .f32⟩
  | .hbm, ⟨42, _⟩ => ⟨S320000x1, .f32⟩
  | .hbm, ⟨43, _⟩ => ⟨S320000x1, .i1⟩
  | .hbm, ⟨44, _⟩ => ⟨S320000x1, .f32⟩
  | .hbm, ⟨45, _⟩ => ⟨S_, .f32⟩
  | .hbm, ⟨46, _⟩ => ⟨S_, .f32⟩
  | .hbm, ⟨47, _⟩ => ⟨S320000x1, .f32⟩
  | .hbm, ⟨48, _⟩ => ⟨S320000x1, .f32⟩
  | .hbm, ⟨49, _⟩ => ⟨S_, .f32⟩
  | .hbm, ⟨50, _⟩ => ⟨S10000x10000, .f32⟩
  | .hbm, ⟨51, _⟩ => ⟨S320000, .f32⟩
  | .hbm, ⟨52, _⟩ => ⟨S_, .i32⟩
  | .hbm, ⟨53, _⟩ => ⟨S320000, .i32⟩
  | .hbm, ⟨54, _⟩ => ⟨S320000, .i1⟩
  | .hbm, ⟨55, _⟩ => ⟨S_, .i32⟩
  | .hbm, ⟨56, _⟩ => ⟨S320000, .i32⟩
  | .hbm, ⟨57, _⟩ => ⟨S320000, .i32⟩
  | .hbm, ⟨58, _⟩ => ⟨S320000, .i32⟩
  | .hbm, ⟨59, _⟩ => ⟨S_, .i32⟩
  | .hbm, ⟨60, _⟩ => ⟨S320000, .i32⟩
  | .hbm, ⟨61, _⟩ => ⟨S320000, .i1⟩
  | .hbm, ⟨62, _⟩ => ⟨S_, .i32⟩
  | .hbm, ⟨63, _⟩ => ⟨S320000, .i32⟩
  | .hbm, ⟨64, _⟩ => ⟨S320000, .i32⟩
  | .hbm, ⟨65, _⟩ => ⟨S320000, .i32⟩
  | .hbm, ⟨66, _⟩ => ⟨S320000x1, .i32⟩
  | .hbm, ⟨67, _⟩ => ⟨S320000x1, .i32⟩
  | .hbm, ⟨68, _⟩ => ⟨S320000x2, .i32⟩
  | .hbm, ⟨69, _⟩ => ⟨S10000x10000, .f32⟩
  | .hbm, ⟨70, _⟩ => ⟨S_, .i32⟩
  | .hbm, ⟨71, _⟩ => ⟨S320000, .i32⟩
  | .hbm, ⟨72, _⟩ => ⟨S320000, .i1⟩
  | .hbm, ⟨73, _⟩ => ⟨S_, .i32⟩
  | .hbm, ⟨74, _⟩ => ⟨S320000, .i32⟩
  | .hbm, ⟨75, _⟩ => ⟨S320000, .i32⟩
  | .hbm, ⟨76, _⟩ => ⟨S320000, .i32⟩
  | .hbm, ⟨77, _⟩ => ⟨S_, .i32⟩
  | .hbm, ⟨78, _⟩ => ⟨S320000, .i32⟩
  | .hbm, ⟨79, _⟩ => ⟨S320000, .i1⟩
  | .hbm, ⟨80, _⟩ => ⟨S_, .i32⟩
  | .hbm, ⟨81, _⟩ => ⟨S320000, .i32⟩
  | .hbm, ⟨82, _⟩ => ⟨S320000, .i32⟩
  | .hbm, ⟨83, _⟩ => ⟨S320000, .i32⟩
  | .hbm, ⟨84, _⟩ => ⟨S320000x1, .i32⟩
  | .hbm, ⟨85, _⟩ => ⟨S320000x1, .i32⟩
  | .hbm, ⟨86, _⟩ => ⟨S320000x2, .i32⟩
  | .hbm, ⟨87, _⟩ => ⟨S320000, .f32⟩
  | .hbm, ⟨88, _⟩ => ⟨S320000x1x128, .f32⟩
  | .hbm, ⟨89, _⟩ => ⟨S320000x128, .f32⟩
  | .hbm, ⟨90, _⟩ => ⟨S320000x1, .f32⟩
  | .hbm, ⟨91, _⟩ => ⟨S320000x128, .f32⟩
  | .hbm, ⟨92, _⟩ => ⟨S_, .f32⟩
  | .hbm, ⟨93, _⟩ => ⟨S10000x128, .f32⟩
  | .hbm, ⟨94, _⟩ => ⟨S_, .i32⟩
  | .hbm, ⟨95, _⟩ => ⟨S320000, .i32⟩
  | .hbm, ⟨96, _⟩ => ⟨S320000, .i1⟩
  | .hbm, ⟨97, _⟩ => ⟨S_, .i32⟩
  | .hbm, ⟨98, _⟩ => ⟨S320000, .i32⟩
  | .hbm, ⟨99, _⟩ => ⟨S320000, .i32⟩
  | .hbm, ⟨100, _⟩ => ⟨S320000, .i32⟩
  | .hbm, ⟨101, _⟩ => ⟨S320000x1, .i32⟩
  | .hbm, ⟨102, _⟩ => ⟨S10000x128, .f32⟩
  | .hbm, ⟨103, _⟩ => ⟨S1x128, .f32⟩
  | .hbm, ⟨104, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S4000x256, .f32⟩
  | .local _ .vmem, ⟨6, _⟩ => ⟨S4000x256, .f32⟩
  | .local _ .vmem, ⟨7, _⟩ => ⟨S256x1, .f32⟩
  | .local _ .vmem, ⟨8, _⟩ => ⟨S4000x1, .f32⟩
  | .local _ .vmem, ⟨9, _⟩ => ⟨S4000x1, .f32⟩
  | .local _ .vmem, ⟨10, _⟩ => ⟨S4000x128, .f32⟩
  | .local _ .vmem, ⟨11, _⟩ => ⟨S4000x128, .f32⟩
  | .local _ .vmem, ⟨12, _⟩ => ⟨S4000x1, .f32⟩
  | .local _ .vmem, ⟨13, _⟩ => ⟨S4000x1, .f32⟩
  | .local _ .vmem, ⟨14, _⟩ => ⟨S4000x128, .f32⟩
  | .local _ .vmem, ⟨15, _⟩ => ⟨S4000x128, .f32⟩
  | .local _ .vmem, ⟨16, _⟩ => ⟨S2000x128, .f32⟩
  | .local _ .vmem, ⟨17, _⟩ => ⟨S2000x128, .f32⟩
  | .local _ .vmem, ⟨18, _⟩ => ⟨S1x128, .f32⟩
  | .local _ .vmem, ⟨19, _⟩ => ⟨S2000x128, .f32⟩
  | .local _ .vmem, ⟨20, _⟩ => ⟨S2000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_call0_v0 : Ref sig .tc := ⟨.hbm, 46, rfl⟩
abbrev main_call0_v1 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_c_8 : Ref sig .tc := ⟨.hbm, 52, rfl⟩
abbrev main_v35 : Ref sig .tc := ⟨.hbm, 53, rfl⟩
abbrev main_v36 : Ref sig .tc := ⟨.hbm, 54, rfl⟩
abbrev main_c_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_10 : Ref sig .tc := ⟨.hbm, 59, rfl⟩
abbrev main_v40 : Ref sig .tc := ⟨.hbm, 60, rfl⟩
abbrev main_v41 : Ref sig .tc := ⟨.hbm, 61, rfl⟩
abbrev main_c_11 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_12 : Ref sig .tc := ⟨.hbm, 70, rfl⟩
abbrev main_v49 : Ref sig .tc := ⟨.hbm, 71, rfl⟩
abbrev main_v50 : Ref sig .tc := ⟨.hbm, 72, rfl⟩
abbrev main_c_13 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_14 : Ref sig .tc := ⟨.hbm, 77, rfl⟩
abbrev main_v54 : Ref sig .tc := ⟨.hbm, 78, rfl⟩
abbrev main_v55 : Ref sig .tc := ⟨.hbm, 79, rfl⟩
abbrev main_c_15 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_16 : Ref sig .tc := ⟨.hbm, 92, rfl⟩
abbrev main_v67 : Ref sig .tc := ⟨.hbm, 93, rfl⟩
abbrev main_c_17 : Ref sig .tc := ⟨.hbm, 94, rfl⟩
abbrev main_v68 : Ref sig .tc := ⟨.hbm, 95, rfl⟩
abbrev main_v69 : Ref sig .tc := ⟨.hbm, 96, rfl⟩
abbrev main_c_18 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S320000x2_S320000x1_0_0 : S320000x2.Slices ![0, 0] S320000x1
  shapeCasts_S320000x1_S320000 : S320000x1.ShapeCasts S320000
  slices_S320000x2_S320000x1_0_1 : S320000x2.Slices ![0, 1] S320000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S320000x2 : S_.BroadcastsInDim S320000x2 (![] : Fin 0 → Fin S320000x2.rank)
  bcast_S320000x2_S320000x2x1_0_1 : S320000x2.BroadcastsInDim S320000x2x1 (![0, 1] : Fin 2 → Fin S320000x2x1.rank)
  shapeCasts_S320000x2x128_S320000x256 : S320000x2x128.ShapeCasts S320000x256
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x1_S256x1_0_0 : ∀ a, (![0, 0] : Fin 2 → Nat) a + S256x1.size a ≤ S256x1.size a
  h_S256x1 : 0 < S256x1.numel
  inb_S4000x1_S4000x1_0_0 : ∀ a, (![0, 0] : Fin 2 → Nat) a + S4000x1.size a ≤ S4000x1.size a
  h_S4000x1 : 0 < S4000x1.numel
  bcast_S_S10000x1 : S_.BroadcastsInDim S10000x1 (![] : Fin 0 → Fin S10000x1.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S_S10000x10000 : S_.BroadcastsInDim S10000x10000 (![] : Fin 0 → Fin S10000x10000.rank)
  concatenates_S320000x1_S320000x1_S320000x2_d1 : Shape.Concatenates [S320000x1, S320000x1] S320000x2 1
  slices_S320000x2x128_S320000x1x128_0_1_0 : S320000x2x128.Slices ![0, 1, 0] S320000x1x128
  shapeCasts_S320000x1x128_S320000x128 : S320000x1x128.ShapeCasts S320000x128
  shapeCasts_S320000_S320000x1 : S320000.ShapeCasts S320000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  shapeCasts_S4000x1_S4000x1 : S4000x1.ShapeCasts S4000x1
  broadcasts_S4000x1_S4000x128 : S4000x1.Broadcasts S4000x128
  bcast_S_S10000x128 : S_.BroadcastsInDim S10000x128 (![] : Fin 0 → Fin S10000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  dot_S2000x128_S128x128_S2000x128_1_0_0_1_n_n_wf : DotDims.WF S2000x128 S128x128 S2000x128 [1] [0] [0] [1] [] []
  gather_S10000x128_S320000x2x1_S320000x2x128_2_0_n_n_0_2_1128_wf : GatherDims.WF S10000x128 S320000x2x1 S320000x2x128 [2] [0] [] [0] [] 2 ![1, 128]
  dot_S4000x256_S256x1_S4000x1_1_0_0_1_n_n_wf : DotDims.WF S4000x256 S256x1 S4000x1 [1] [0] [0] [1] [] []
  scatter_S10000x1_S320000x1_S320000x1_1_0_0_1_wf : ScatterDims.WF S10000x1 S320000x1 S320000x1 [1] [0] [0] 1
  gather_S10000x1_S320000x1_S320000x1_1_0_n_n_0_1_11_wf : GatherDims.WF S10000x1 S320000x1 S320000x1 [1] [0] [] [0] [] 1 ![1, 1]
  scatter_S10000x10000_S320000x2_S320000_n_01_01_1_wf : ScatterDims.WF S10000x10000 S320000x2 S320000 [] [0, 1] [0, 1] 1
  gather_S10000x10000_S320000x2_S320000_n_01_n_n_01_1_11_wf : GatherDims.WF S10000x10000 S320000x2 S320000 [] [0, 1] [] [0, 1] [] 1 ![1, 1]
  scatter_S10000x128_S320000x1_S320000x128_1_0_0_1_wf : ScatterDims.WF S10000x128 S320000x1 S320000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S10000x128.size a
  hwx0_2 : ∀ i : grid0.Coords, EltTy.bits .f32 = 32 ∨ (Rect.block (s := S10000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S320000x256.size a
  hwx1_0 : ∀ i : grid1.Coords, EltTy.bits .f32 = 32 ∨ (Rect.block (s := S320000x256) S4000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S256x1.size a
  hwx1_1 : ∀ i : grid1.Coords, EltTy.bits .f32 = 32 ∨ (Rect.block (s := S256x1) S256x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S320000x1.size a
  hwx1_2 : ∀ i : grid1.Coords, EltTy.bits .f32 = 32 ∨ (Rect.block (s := S320000x1) S4000x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S320000x128.size a
  hwx2_0 : ∀ i : grid2.Coords, EltTy.bits .f32 = 32 ∨ (Rect.block (s := S320000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S320000x1.size a
  hwx2_1 : ∀ i : grid2.Coords, EltTy.bits .f32 = 32 ∨ (Rect.block (s := S320000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S320000x128.size a
  hwx2_2 : ∀ i : grid2.Coords, EltTy.bits .f32 = 32 ∨ (Rect.block (s := S320000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S10000x128.size a
  hwx3_0 : ∀ i : grid3.Coords, EltTy.bits .f32 = 32 ∨ (Rect.block (s := S10000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S10000x128.size a
  hwx3_2 : ∀ i : grid3.Coords, EltTy.bits .f32 = 32 ∨ (Rect.block (s := S10000x128) S2000x128.size (cc3_transform_2 i) (hinb3_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S10000x128_S320000x2x1_S320000x2x128_2_0_n_n_0_2_1128 : GatherDims S10000x128 S320000x2x1 S320000x2x128 where
  offsetDims := [2]
  collapsedSliceDims := [0]
  operandBatchingDims := []
  startIndicesBatchingDims := []
  startIndexMap := [0]
  indexVectorDim := 2
  sliceSizes := ![1, 128]
  wf := gather_S10000x128_S320000x2x1_S320000x2x128_2_0_n_n_0_2_1128_wf
def dot_S4000x256_S256x1_S4000x1_1_0_0_1_n_n : DotDims S4000x256 S256x1 S4000x1 where
  lhsContracting := [1]
  rhsContracting := [0]
  lhsNonContracting := [0]
  rhsNonContracting := [1]
  lhsBatch := []
  rhsBatch := []
  wf := dot_S4000x256_S256x1_S4000x1_1_0_0_1_n_n_wf
def scatter_S10000x1_S320000x1_S320000x1_1_0_0_1 : ScatterDims S10000x1 S320000x1 S320000x1 where
  updateWindowDims := [1]
  insertedWindowDims := [0]
  scatterDimsToOperandDims := [0]
  indexVectorDim := 1
  wf := scatter_S10000x1_S320000x1_S320000x1_1_0_0_1_wf
def gather_S10000x1_S320000x1_S320000x1_1_0_n_n_0_1_11 : GatherDims S10000x1 S320000x1 S320000x1 where
  offsetDims := [1]
  collapsedSliceDims := [0]
  operandBatchingDims := []
  startIndicesBatchingDims := []
  startIndexMap := [0]
  indexVectorDim := 1
  sliceSizes := ![1, 1]
  wf := gather_S10000x1_S320000x1_S320000x1_1_0_n_n_0_1_11_wf
def scatter_S10000x10000_S320000x2_S320000_n_01_01_1 : ScatterDims S10000x10000 S320000x2 S320000 where
  updateWindowDims := []
  insertedWindowDims := [0, 1]
  scatterDimsToOperandDims := [0, 1]
  indexVectorDim := 1
  wf := scatter_S10000x10000_S320000x2_S320000_n_01_01_1_wf
def gather_S10000x10000_S320000x2_S320000_n_01_n_n_01_1_11 : GatherDims S10000x10000 S320000x2 S320000 where
  offsetDims := []
  collapsedSliceDims := [0, 1]
  operandBatchingDims := []
  startIndicesBatchingDims := []
  startIndexMap := [0, 1]
  indexVectorDim := 1
  sliceSizes := ![1, 1]
  wf := gather_S10000x10000_S320000x2_S320000_n_01_n_n_01_1_11_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S4000x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v64) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v66) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v74) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x128 : Shape := ⟨2, ![10000, 128]⟩
abbrev S320000x2 : Shape := ⟨2, ![320000, 2]⟩
abbrev S128x128 : Shape := ⟨2, ![128, 128]⟩
abbrev S256x1 : Shape := ⟨2, ![256, 1]⟩
abbrev S128 : Shape := ⟨1, ![128]⟩
abbrev S320000x1 : Shape := ⟨2, ![320000, 1]⟩
abbrev S320000 : Shape := ⟨1, ![320000]⟩
abbrev S_ : Shape := ⟨0, ![]⟩
abbrev S320000x2x1 : Shape := ⟨3, ![320000, 2, 1]⟩
abbrev S320000x2x128 : Shape := ⟨3, ![320000, 2, 128]⟩
abbrev S320000x256 : Shape := ⟨2, ![320000, 256]⟩
abbrev S10000x1 : Shape := ⟨2, ![10000, 1]⟩
abbrev S10000x10000 : Shape := ⟨2, ![10000, 10000]⟩
abbrev S320000x1x1 : Shape := ⟨3, ![320000, 1, 1]⟩
abbrev S320000x1x128 : Shape := ⟨3, ![320000, 1, 128]⟩
abbrev S320000x128 : Shape := ⟨2, ![320000, 128]⟩
abbrev S1x128 : Shape := ⟨2, ![1, 128]⟩

abbrev nBuf : Space → Nat
  | .hbm => 111
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S320000x2, .i32⟩
  | .hbm, ⟨2, _⟩ => ⟨S128x128, .f32⟩
  | .hbm, ⟨3, _⟩ => ⟨S256x1, .f32⟩
  | .hbm, ⟨4, _⟩ => ⟨S128, .f32⟩
  | .hbm, ⟨5, _⟩ => ⟨S320000x1, .i32⟩
  | .hbm, ⟨6, _⟩ => ⟨S320000, .i32⟩
  | .hbm, ⟨7, _⟩ => ⟨S320000x1, .i32⟩
  | .hbm, ⟨8, _⟩ => ⟨S320000, .i32⟩
  | .hbm, ⟨9, _⟩ => ⟨S10000x128, .f32⟩
  | .hbm, ⟨10, _⟩ => ⟨S_, .i32⟩
  | .hbm, ⟨11, _⟩ => ⟨S320000x2, .i32⟩
  | .hbm, ⟨12, _⟩ => ⟨S320000x2, .i1⟩
  | .hbm, ⟨13, _⟩ => ⟨S_, .i32⟩
  | .hbm, ⟨14, _⟩ => ⟨S320000x2, .i32⟩
  | .hbm, ⟨15, _⟩ => ⟨S320000x2, .i32⟩
  | .hbm, ⟨16, _⟩ => ⟨S320000x2, .i32⟩
  | .hbm, ⟨17, _⟩ => ⟨S320000x2x1, .i32⟩
  | .hbm, ⟨18, _⟩ => ⟨S320000x2x128, .f32⟩
  | .hbm, ⟨19, _⟩ => ⟨S320000x256, .f32⟩
  | .hbm, ⟨20, _⟩ => ⟨S320000x1, .f32⟩
  | .hbm, ⟨21, _⟩ => ⟨S320000x1, .f32⟩
  | .hbm, ⟨22, _⟩ => ⟨S_, .f32⟩
  | .hbm, ⟨23, _⟩ => ⟨S10000x1, .f32⟩
  | .hbm, ⟨24, _⟩ => ⟨S_, .i32⟩
  | .hbm, ⟨25, _⟩ => ⟨S320000, .i32⟩
  | .hbm, ⟨26, _⟩ => ⟨S320000, .i1⟩
  | .hbm, ⟨27, _⟩ => ⟨S_, .i32⟩
  | .hbm, ⟨28, _⟩ => ⟨S320000, .i32⟩
  | .hbm, ⟨29, _⟩ => ⟨S320000, .i32⟩
  | .hbm, ⟨30, _⟩ => ⟨S320000, .i32⟩
  | .hbm, ⟨31, _⟩ => ⟨S320000x1, .i32⟩
  | .hbm, ⟨32, _⟩ => ⟨S10000x1, .f32⟩
  | .hbm, ⟨33, _⟩ => ⟨S_, .i32⟩
  | .hbm, ⟨34, _⟩ => ⟨S320000, .i32⟩
  | .hbm, ⟨35, _⟩ => ⟨S320000, .i1⟩
  | .hbm, ⟨36, _⟩ => ⟨S_, .i32⟩
  | .hbm, ⟨37, _⟩ => ⟨S320000, .i32⟩
  | .hbm, ⟨38, _⟩ => ⟨S320000, .i32⟩
  | .hbm, ⟨39, _⟩ => ⟨S320000, .i32⟩
  | .hbm, ⟨40, _⟩ => ⟨S320000x1, .i32⟩
  | .hbm, ⟨41, _⟩ => ⟨S320000x1, .f32⟩
  | .hbm, ⟨42, _⟩ => ⟨S_, .f32⟩
  | .hbm, ⟨43, _⟩ => ⟨S320000x1, .f32⟩
  | .hbm, ⟨44, _⟩ => ⟨S320000x1, .i1⟩
  | .hbm, ⟨45, _⟩ => ⟨S320000x1, .f32⟩
  | .hbm, ⟨46, _⟩ => ⟨S_, .f32⟩
  | .hbm, ⟨47, _⟩ => ⟨S_, .f32⟩
  | .hbm, ⟨48, _⟩ => ⟨S320000x1, .f32⟩
  | .hbm, ⟨49, _⟩ => ⟨S320000x1, .f32⟩
  | .hbm, ⟨50, _⟩ => ⟨S_, .f32⟩
  | .hbm, ⟨51, _⟩ => ⟨S10000x10000, .f32⟩
  | .hbm, ⟨52, _⟩ => ⟨S320000, .f32⟩
  | .hbm, ⟨53, _⟩ => ⟨S_, .i32⟩
  | .hbm, ⟨54, _⟩ => ⟨S320000, .i32⟩
  | .hbm, ⟨55, _⟩ => ⟨S320000, .i1⟩
  | .hbm, ⟨56, _⟩ => ⟨S_, .i32⟩
  | .hbm, ⟨57, _⟩ => ⟨S320000, .i32⟩
  | .hbm, ⟨58, _⟩ => ⟨S320000, .i32⟩
  | .hbm, ⟨59, _⟩ => ⟨S320000, .i32⟩
  | .hbm, ⟨60, _⟩ => ⟨S_, .i32⟩
  | .hbm, ⟨61, _⟩ => ⟨S320000, .i32⟩
  | .hbm, ⟨62, _⟩ => ⟨S320000, .i1⟩
  | .hbm, ⟨63, _⟩ => ⟨S_, .i32⟩
  | .hbm, ⟨64, _⟩ => ⟨S320000, .i32⟩
  | .hbm, ⟨65, _⟩ => ⟨S320000, .i32⟩
  | .hbm, ⟨66, _⟩ => ⟨S320000, .i32⟩
  | .hbm, ⟨67, _⟩ => ⟨S320000x1, .i32⟩
  | .hbm, ⟨68, _⟩ => ⟨S320000x1, .i32⟩
  | .hbm, ⟨69, _⟩ => ⟨S320000x2, .i32⟩
  | .hbm, ⟨70, _⟩ => ⟨S10000x10000, .f32⟩
  | .hbm, ⟨71, _⟩ => ⟨S_, .i32⟩
  | .hbm, ⟨72, _⟩ => ⟨S320000, .i32⟩
  | .hbm, ⟨73, _⟩ => ⟨S320000, .i1⟩
  | .hbm, ⟨74, _⟩ => ⟨S_, .i32⟩
  | .hbm, ⟨75, _⟩ => ⟨S320000, .i32⟩
  | .hbm, ⟨76, _⟩ => ⟨S320000, .i32⟩
  | .hbm, ⟨77, _⟩ => ⟨S320000, .i32⟩
  | .hbm, ⟨78, _⟩ => ⟨S_, .i32⟩
  | .hbm, ⟨79, _⟩ => ⟨S320000, .i32⟩
  | .hbm, ⟨80, _⟩ => ⟨S320000, .i1⟩
  | .hbm, ⟨81, _⟩ => ⟨S_, .i32⟩
  | .hbm, ⟨82, _⟩ => ⟨S320000, .i32⟩
  | .hbm, ⟨83, _⟩ => ⟨S320000, .i32⟩
  | .hbm, ⟨84, _⟩ => ⟨S320000, .i32⟩
  | .hbm, ⟨85, _⟩ => ⟨S320000x1, .i32⟩
  | .hbm, ⟨86, _⟩ => ⟨S320000x1, .i32⟩
  | .hbm, ⟨87, _⟩ => ⟨S320000x2, .i32⟩
  | .hbm, ⟨88, _⟩ => ⟨S320000, .f32⟩
  | .hbm, ⟨89, _⟩ => ⟨S320000x1x1, .f32⟩
  | .hbm, ⟨90, _⟩ => ⟨S320000x2x128, .f32⟩
  | .hbm, ⟨91, _⟩ => ⟨S320000x2x128, .f32⟩
  | .hbm, ⟨92, _⟩ => ⟨S_, .f32⟩
  | .hbm, ⟨93, _⟩ => ⟨S10000x128, .f32⟩
  | .hbm, ⟨94, _⟩ => ⟨S320000x1x128, .f32⟩
  | .hbm, ⟨95, _⟩ => ⟨S320000x128, .f32⟩
  | .hbm, ⟨96, _⟩ => ⟨S_, .i32⟩
  | .hbm, ⟨97, _⟩ => ⟨S320000, .i32⟩
  | .hbm, ⟨98, _⟩ => ⟨S320000, .i1⟩
  | .hbm, ⟨99, _⟩ => ⟨S_, .i32⟩
  | .hbm, ⟨100, _⟩ => ⟨S320000, .i32⟩
  | .hbm, ⟨101, _⟩ => ⟨S320000, .i32⟩
  | .hbm, ⟨102, _⟩ => ⟨S320000, .i32⟩
  | .hbm, ⟨103, _⟩ => ⟨S320000x1, .i32⟩
  | .hbm, ⟨104, _⟩ => ⟨S10000x128, .f32⟩
  | .hbm, ⟨105, _⟩ => ⟨S1x128, .f32⟩
  | .hbm, ⟨106, _⟩ => ⟨S10000x128, .f32⟩
  | .hbm, ⟨107, _⟩ => ⟨S10000x128, .f32⟩
  | .hbm, ⟨108, _⟩ => ⟨S_, .f32⟩
  | .hbm, ⟨109, _⟩ => ⟨S10000x128, .f32⟩
  | .hbm, ⟨110, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_call0_v0 : Ref sig .tc := ⟨.hbm, 47, rfl⟩
abbrev main_call0_v1 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_c_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_10 : Ref sig .tc := ⟨.hbm, 60, rfl⟩
abbrev main_v41 : Ref sig .tc := ⟨.hbm, 61, rfl⟩
abbrev main_v42 : Ref sig .tc := ⟨.hbm, 62, rfl⟩
abbrev main_c_11 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_12 : Ref sig .tc := ⟨.hbm, 71, rfl⟩
abbrev main_v50 : Ref sig .tc := ⟨.hbm, 72, rfl⟩
abbrev main_v51 : Ref sig .tc := ⟨.hbm, 73, rfl⟩
abbrev main_c_13 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_14 : Ref sig .tc := ⟨.hbm, 78, rfl⟩
abbrev main_v55 : Ref sig .tc := ⟨.hbm, 79, rfl⟩
abbrev main_v56 : Ref sig .tc := ⟨.hbm, 80, rfl⟩
abbrev main_c_15 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_16 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_17 : Ref sig .tc := ⟨.hbm, 96, rfl⟩
abbrev main_v70 : Ref sig .tc := ⟨.hbm, 97, rfl⟩
abbrev main_v71 : Ref sig .tc := ⟨.hbm, 98, rfl⟩
abbrev main_c_18 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_call1_cst : Ref sig .tc := ⟨.hbm, 108, rfl⟩
abbrev main_call1_v0 : Ref sig .tc := ⟨.hbm, 109, rfl⟩
abbrev main_v80 : Ref sig .tc := ⟨.hbm, 110, rfl⟩

abbrev nD : Nat := 1
abbrev τ : Topo := Topo.v7x

variable {F : FTy → Type} [FloatOps F]

class Facts₀ : Prop where
  slices_S320000x2_S320000x1_0_0 : S320000x2.Slices ![0, 0] S320000x1
  shapeCasts_S320000x1_S320000 : S320000x1.ShapeCasts S320000
  slices_S320000x2_S320000x1_0_1 : S320000x2.Slices ![0, 1] S320000x1
  bcast_S_S320000x2 : S_.BroadcastsInDim S320000x2 (![] : Fin 0 → Fin S320000x2.rank)
  bcast_S320000x2_S320000x2x1_0_1 : S320000x2.BroadcastsInDim S320000x2x1 (![0, 1] : Fin 2 → Fin S320000x2x1.rank)
  shapeCasts_S320000x2x128_S320000x256 : S320000x2x128.ShapeCasts S320000x256
  bcast_S_S10000x1 : S_.BroadcastsInDim S10000x1 (![] : Fin 0 → Fin S10000x1.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S_S10000x10000 : S_.BroadcastsInDim S10000x10000 (![] : Fin 0 → Fin S10000x10000.rank)
  concatenates_S320000x1_S320000x1_S320000x2_d1 : Shape.Concatenates [S320000x1, S320000x1] S320000x2 1
  bcast_S320000_S320000x1x1_0 : S320000.BroadcastsInDim S320000x1x1 (![0] : Fin 1 → Fin S320000x1x1.rank)
  bcast_S320000x1x1_S320000x2x128_0_1_2 : S320000x1x1.BroadcastsInDim S320000x2x128 (![0, 1, 2] : Fin 3 → Fin S320000x2x128.rank)
  bcast_S_S10000x128 : S_.BroadcastsInDim S10000x128 (![] : Fin 0 → Fin S10000x128.rank)
  slices_S320000x2x128_S320000x1x128_0_1_0 : S320000x2x128.Slices ![0, 1, 0] S320000x1x128
  shapeCasts_S320000x1x128_S320000x128 : S320000x1x128.ShapeCasts S320000x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  gather_S10000x128_S320000x2x1_S320000x2x128_2_0_n_n_0_2_1128_wf : GatherDims.WF S10000x128 S320000x2x1 S320000x2x128 [2] [0] [] [0] [] 2 ![1, 128]
  dot_S320000x256_S256x1_S320000x1_1_0_0_1_n_n_wf : DotDims.WF S320000x256 S256x1 S320000x1 [1] [0] [0] [1] [] []
  scatter_S10000x1_S320000x1_S320000x1_1_0_0_1_wf : ScatterDims.WF S10000x1 S320000x1 S320000x1 [1] [0] [0] 1
  gather_S10000x1_S320000x1_S320000x1_1_0_n_n_0_1_11_wf : GatherDims.WF S10000x1 S320000x1 S320000x1 [1] [0] [] [0] [] 1 ![1, 1]
  scatter_S10000x10000_S320000x2_S320000_n_01_01_1_wf : ScatterDims.WF S10000x10000 S320000x2 S320000 [] [0, 1] [0, 1] 1
  gather_S10000x10000_S320000x2_S320000_n_01_n_n_01_1_11_wf : GatherDims.WF S10000x10000 S320000x2 S320000 [] [0, 1] [] [0, 1] [] 1 ![1, 1]
  scatter_S10000x128_S320000x1_S320000x128_1_0_0_1_wf : ScatterDims.WF S10000x128 S320000x1 S320000x128 [1] [0] [0] 1

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S320000x2x1_S320000x2x128_2_0_n_n_0_2_1128 : GatherDims S10000x128 S320000x2x1 S320000x2x128 where
  offsetDims := [2]
  collapsedSliceDims := [0]
  operandBatchingDims := []
  startIndicesBatchingDims := []
  startIndexMap := [0]
  indexVectorDim := 2
  sliceSizes := ![1, 128]
  wf := gather_S10000x128_S320000x2x1_S320000x2x128_2_0_n_n_0_2_1128_wf
def dot_S320000x256_S256x1_S320000x1_1_0_0_1_n_n : DotDims S320000x256 S256x1 S320000x1 where
  lhsContracting := [1]
  rhsContracting := [0]
  lhsNonContracting := [0]
  rhsNonContracting := [1]
  lhsBatch := []
  rhsBatch := []
  wf := dot_S320000x256_S256x1_S320000x1_1_0_0_1_n_n_wf
def scatter_S10000x1_S320000x1_S320000x1_1_0_0_1 : ScatterDims S10000x1 S320000x1 S320000x1 where
  updateWindowDims := [1]
  insertedWindowDims := [0]
  scatterDimsToOperandDims := [0]
  indexVectorDim := 1
  wf := scatter_S10000x1_S320000x1_S320000x1_1_0_0_1_wf
def gather_S10000x1_S320000x1_S320000x1_1_0_n_n_0_1_11 : GatherDims S10000x1 S320000x1 S320000x1 where
  offsetDims := [1]
  collapsedSliceDims := [0]
  operandBatchingDims := []
  startIndicesBatchingDims := []
  startIndexMap := [0]
  indexVectorDim := 1
  sliceSizes := ![1, 1]
  wf := gather_S10000x1_S320000x1_S320000x1_1_0_n_n_0_1_11_wf
def scatter_S10000x10000_S320000x2_S320000_n_01_01_1 : ScatterDims S10000x10000 S320000x2 S320000 where
  updateWindowDims := []
  insertedWindowDims := [0, 1]
  scatterDimsToOperandDims := [0, 1]
  indexVectorDim := 1
  wf := scatter_S10000x10000_S320000x2_S320000_n_01_01_1_wf
def gather_S10000x10000_S320000x2_S320000_n_01_n_n_01_1_11 : GatherDims S10000x10000 S320000x2 S320000 where
  offsetDims := []
  collapsedSliceDims := [0, 1]
  operandBatchingDims := []
  startIndicesBatchingDims := []
  startIndexMap := [0, 1]
  indexVectorDim := 1
  sliceSizes := ![1, 1]
  wf := gather_S10000x10000_S320000x2_S320000_n_01_n_n_01_1_11_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf

class Facts : Prop extends Facts₀ where

variable [Facts]
-- ==== Proof.KernelRun.lean ====
/-
  The idealized kernel's run with its result NAMED. The program is ten segments — four tiled regions among stretches of host
  operations — and its generated frame proof already carries, through every segment, the contents of every unscoped buffer of
  the core; at the return those are `Gen.W10`, the fold of the host stretches and of the regions' write-backs from the launch
  memory. Here the same launch is read once more at the end, at the result buffer as well as at the arguments: every weakly fair
  execution terminates with the result array at `Gen.W10 … main_v76` and the arguments as launched.
-/
import proofs.«105251_j66984309948497_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the program's segments, the last thread state read against the final state at the result buffer
    and at each argument. -/
theorem run_named : θ_run defs (onTc (τ := τ) (main (F := F))) ⟨m, fun _ => 0, ρ⟩ (fun r => ∀ c : Dev nD,
      r.2.mem ((c.tc : Thread nD τ).loc main_v76) = W10 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v76 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c)⟩)

end Cert.KernelIdeal.Named

end
-- ==== Proof.Stages.lean ====
/-
  The four tiled stages of the edge-attention layer, each as ONE whole-array function of its operand arrays over the extended
  reals, index by index: the node keys `x · w` (a sum over the 128 input features), the edge scores `exp (g · a)` (a sum over
  the 256 concatenated endpoint features, then the exponential), the weighted destination features (each row scaled by its edge's
  coefficient, a column) and the finishing `max (x + b, 0)` (the bias a row).
-/
import Idealize.ShloMosaic.PureOps.Ideal.Laws
import Idealize.ShloMosaic.Lib.ValueIdx

noncomputable section

namespace Cert.EdgeAttention

open Idealize.ShloMosaic Idealize.ShloMosaic.ValueIdx

/-- Node keys: row `r`, column `j` is `Σ_k x (r, k) · w (k, j)`. -/
def keys (x : FVec Ideal ⟨2, ![10000, 128]⟩ .f32) (w : FVec Ideal ⟨2, ![128, 128]⟩ .f32) : FVec Ideal ⟨2, ![10000, 128]⟩ .f32 :=
  fun i => ∑ k : Fin 128, x (ix2 ⟨(i 0).val, idx2_lt0 i⟩ k) * w (ix2 k ⟨(i 1).val, idx2_lt1 i⟩)

/-- Edge scores: edge `e` is `exp (Σ_k g (e, k) · a (k, 0))`. -/
def scores (g : FVec Ideal ⟨2, ![320000, 256]⟩ .f32) (a : FVec Ideal ⟨2, ![256, 1]⟩ .f32) : FVec Ideal ⟨2, ![320000, 1]⟩ .f32 :=
  fun i => Ideal.exp (∑ k : Fin 256, g (ix2 ⟨(i 0).val, idx2_lt0 i⟩ k) * a (ix2 k ⟨(i 1).val, idx2_lt1 i⟩))

/-- Weighted features: row `e` of `g` times the coefficient of edge `e`. -/
def weighted (g : FVec Ideal ⟨2, ![320000, 128]⟩ .f32) (co : FVec Ideal ⟨2, ![320000, 1]⟩ .f32) : FVec Ideal ⟨2, ![320000, 128]⟩ .f32 :=
  fun i => g i * co (ix2 ⟨(i 0).val, idx2_lt0 i⟩ (0 : Fin 1))

/-- The finish: `max (x + b, 0)`, the bias `b` a single row. -/
def finish (x : FVec Ideal ⟨2, ![10000, 128]⟩ .f32) (b : FVec Ideal ⟨2, ![1, 128]⟩ .f32) : FVec Ideal ⟨2, ![10000, 128]⟩ .f32 :=
  fun i => max (x i + b (ix2 (0 : Fin 1) ⟨(i 1).val, idx2_lt1 i⟩)) 0

end Cert.EdgeAttention

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.StageLaws.lean ====
/-
  The four tiled stages of the layer (Stages.lean) against the host operations a plain jnp program computes them with, over the
  extended reals, index by index.
  * The node keys: a host `dot_general` of a 10000×128 by a 128×128 matrix is the sum over the contracted coordinate.
  * The edge scores: the exponential of such a product, 320000×256 by 256×1.
  * The weighted features: the host multiplies the whole gathered pair tensor (edge, endpoint, feature) by the edge's coefficient
    spread over both endpoints and all features and THEN keeps endpoint 1; the tiled stage keeps endpoint 1 first and multiplies
    each row by its coefficient. Both read, at (edge e, feature j), the gathered entry (e, 1, j) times the coefficient of e.
  * The finish: the host adds the bias spread down the rows and takes the maximum with zero; the tiled stage reads the bias as
    a single row. Both read, at (r, j), `max (x (r, j) + bias j, 0)`.
-/
import proofs.«105251_j66984309948497_1_alg».proof.Proof.Gen.ReferenceIdeal.Read
import proofs.«105251_j66984309948497_1_alg».proof.Proof.Stages
import proofs.«105251_j66984309948497_1_alg».proof.Proof.LibPlainDot

noncomputable section

namespace Cert.EdgeAttention

open Cert.ReferenceIdeal Idealize.ShloMosaic Idealize.ShloMosaic.ValueIdx

/-- The host's node-key product is the sum over the 128 input features. -/
theorem dot_keys (x : FVec Ideal S10000x128 .f32) (w : FVec Ideal S128x128 .f32) :
    Host.dotGeneral dot_S10000x128_S128x128_S10000x128_1_0_0_1_n_n none x w = keys x w := by
  funext i
  simp only [Host.dotGeneral]
  rw [show dot_S10000x128_S128x128_S10000x128_1_0_0_1_n_n = DotDims.plain 10000 128 128 from rfl]
  exact PlainDot.dotGeneral_apply _ _ x w i

/-- The host's edge score is the exponential of the sum over the 256 concatenated endpoint features. -/
theorem exp_dot_scores (g : FVec Ideal S320000x256 .f32) (a : FVec Ideal S256x1 .f32) :
    Host.exp (Host.dotGeneral dot_S320000x256_S256x1_S320000x1_1_0_0_1_n_n none g a) = scores g a := by
  funext i
  show FloatOps.hostUnary .exp (Host.dotGeneral dot_S320000x256_S256x1_S320000x1_1_0_0_1_n_n none g a i) = _
  simp only [Host.dotGeneral]
  rw [show dot_S320000x256_S256x1_S320000x1_1_0_0_1_n_n = DotDims.plain 320000 256 1 from rfl,
    PlainDot.dotGeneral_apply _ _ g a i, Ideal.hostUnary_exp_def]
  rfl

/-- Entry (e, j) of the kept-endpoint view of a pair tensor is its entry (e, 1, j). -/
theorem kept_endpoint_apply (G : FVec Ideal S320000x2x128 .f32)
    (hs : S320000x2x128.Slices ![0, 1, 0] S320000x1x128) (hc : S320000x1x128.ShapeCasts S320000x128) (i : S320000x128.Idx) :
    shapeCast S320000x128 (extractStridedSlice S320000x1x128 ![0, 1, 0] G hs) hc i
      = G (ix3 ⟨(i 0).val, (i 0).isLt⟩ (1 : Fin 2) ⟨(i 1).val, (i 1).isLt⟩) := by
  have h0 : (i 0).val < 320000 := (i 0).isLt
  have h1 : (i 1).val < 128 := (i 1).isLt
  rw [shapeCast_apply _ hc i (ix3 ⟨(i 0).val, h0⟩ (0 : Fin 1) ⟨(i 1).val, h1⟩)
    (by rewrite [Shape.rowMajor_val_three, Shape.rowMajor_val_two]
        show ((i 0).val * 1 + 0) * 128 + (i 1).val = (i 0).val * 128 + (i 1).val; omega)]
  exact extractStridedSlice_apply ![0, 1, 0] G hs _ _ (fun a => match a with
    | ⟨0, _⟩ => by show (i 0).val = 0 + (i 0).val; omega
    | ⟨1, _⟩ => by show 1 = 1 + 0; rfl
    | ⟨2, _⟩ => by show (i 1).val = 0 + (i 1).val; omega)

/-- Multiplying the pair tensor by the coefficients spread over endpoints and features, then keeping endpoint 1, is
    keeping endpoint 1 and scaling each row by its edge's coefficient. -/
theorem weighted_eq (G : FVec Ideal S320000x2x128 .f32) (co : FVec Ideal S320000 .f32)
    (hs : S320000x2x128.Slices ![0, 1, 0] S320000x1x128) (hc : S320000x1x128.ShapeCasts S320000x128)
    (hc1 : S320000.ShapeCasts S320000x1)
    (hb1 : S320000.BroadcastsInDim S320000x1x1 ![0]) (hb2 : S320000x1x1.BroadcastsInDim S320000x2x128 ![0, 1, 2]) :
    shapeCast S320000x128 (extractStridedSlice S320000x1x128 ![0, 1, 0]
        (mulf G (broadcastInDim S320000x2x128 ![0, 1, 2] hb2 (broadcastInDim S320000x1x1 ![0] hb1 co))) hs) hc
      = weighted (shapeCast S320000x128 (extractStridedSlice S320000x1x128 ![0, 1, 0] G hs) hc) (shapeCast S320000x1 co hc1) := by
  funext i
  have h0 : (i 0).val < 320000 := (i 0).isLt
  have h1 : (i 1).val < 128 := (i 1).isLt
  rw [kept_endpoint_apply _ hs hc i]
  unfold weighted
  rw [kept_endpoint_apply G hs hc i]
  show FloatOps.mulf (G _) (broadcastInDim S320000x2x128 ![0, 1, 2] hb2 (broadcastInDim S320000x1x1 ![0] hb1 co) _) = G _ * _
  rw [broadcastInDim_apply _ hb2 _ _ (ix3 ⟨(i 0).val, h0⟩ (0 : Fin 1) (0 : Fin 1)) (fun a => match a with
      | ⟨0, _⟩ => by show (i 0).val = if (320000 : Nat) = 1 then 0 else (i 0).val; rw [if_neg (by decide)]
      | ⟨1, _⟩ => by show 0 = if (1 : Nat) = 1 then 0 else 1; rw [if_pos rfl]
      | ⟨2, _⟩ => by show 0 = if (1 : Nat) = 1 then 0 else (i 1).val; rw [if_pos rfl]),
    broadcastInDim_apply _ hb1 co _ (ix1 ⟨(i 0).val, h0⟩) (fun a => match a with
      | ⟨0, _⟩ => by show (i 0).val = if (320000 : Nat) = 1 then 0 else (i 0).val; rw [if_neg (by decide)]),
    shapeCast_apply co hc1 _ (ix1 ⟨(i 0).val, h0⟩)
      (by rewrite [Shape.rowMajor_val_one, Shape.rowMajor_val_two]; show (i 0).val = (i 0).val * 1 + 0; omega)]
  rfl

/-- Adding the bias spread down the rows and taking the maximum with zero is the finish with the bias as one row. -/
theorem finish_eq (x : FVec Ideal S10000x128 .f32) (b : FVec Ideal S128 .f32)
    (hb1 : S128.BroadcastsInDim S1x128 ![1]) (hb2 : S1x128.BroadcastsInDim S10000x128 ![0, 1])
    (hb0 : S_.BroadcastsInDim S10000x128 ![]) (hc : S128.ShapeCasts S1x128) :
    maximumf (addf x (broadcastInDim S10000x128 ![0, 1] hb2 (broadcastInDim S1x128 ![1] hb1 b)))
        (broadcastInDim S10000x128 ![] hb0 (constant (F := Ideal) S_ .f32 0x00000000#32))
      = finish x (shapeCast S1x128 b hc) := by
  funext i
  have h1 : (i 1).val < 128 := (i 1).isLt
  unfold finish
  show FloatOps.maximumf (FloatOps.addf (x i) (broadcastInDim S10000x128 ![0, 1] hb2 (broadcastInDim S1x128 ![1] hb1 b) i))
      (broadcastInDim S10000x128 ![] hb0 (constant (F := Ideal) S_ .f32 0x00000000#32) i) = _
  rw [broadcastInDim_apply _ hb2 _ i (ix2 (0 : Fin 1) ⟨(i 1).val, h1⟩) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)]),
    broadcastInDim_apply _ hb1 b _ (ix1 ⟨(i 1).val, h1⟩) (fun a => match a with
      | ⟨0, _⟩ => by show (i 1).val = if (128 : Nat) = 1 then 0 else (i 1).val; rw [if_neg (by decide)]),
    broadcastInDim_apply _ hb0 _ i (fun a => a.elim0) (fun a => a.elim0),
    shapeCast_apply b hc (ix2 (0 : Fin 1) ⟨(i 1).val, idx2_lt1 i⟩) (ix1 ⟨(i 1).val, h1⟩)
      (by rewrite [Shape.rowMajor_val_one, Shape.rowMajor_val_two]; show (i 1).val = 0 * 128 + (i 1).val; omega)]
  show max (x i + b _) (Ideal.ofBits .f32 0x00000000#32) = _
  rw [Ideal.ofBits_zero_f32]

end Cert.EdgeAttention

end
-- ==== Proof.Boundaries.lean ====
/-
  The idealized kernel's result array, read back through the whole program. The generated frame proof names the contents of the
  core's buffers at every boundary between a stretch of host operations and a tiled region (`Gen.W1 … Gen.W10`: each stretch a
  fold of its operations over the previous boundary's contents, each region its output array's write-backs over its entry
  contents). Boundary by boundary, every buffer that a later operation reads is here identified with the plain jnp program's
  stage of the same name as a function of the five argument arrays: a host operation of the kernel's program IS the reference's
  operation on equal operands; a tiled region's output array is one whole-array function of its operands (taken here as
  hypotheses `hr0 … hr3`, one per region), which is the reference's host computation of that stage (StageLaws). At the return
  the kernel's result array is the reference's result stage of the arguments.
-/
import proofs.«105251_j66984309948497_1_alg».proof.Proof.Gen.KernelIdeal.Frame
import proofs.«105251_j66984309948497_1_alg».proof.Proof.Gen.ReferenceIdeal.Read
import proofs.«105251_j66984309948497_1_alg».proof.Proof.StageLaws
import Idealize.ShloMosaic.Lib.StableHlo.Run

set_option maxRecDepth 16384

noncomputable section

namespace Cert.KernelIdeal.Boundary

open Cert.KernelIdeal Cert.KernelIdeal.Gen Cert.ReferenceIdeal.Read Cert.EdgeAttention
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## After the first stretch: the two index columns -/

theorem W1_arg0 (c : Dev nD) : W1 m ρ c (Proc.devRef .tc main_arg0) = m ((c : Thread nD τ).loc main_arg0) := by
  show StableHlo.after hostOps0 (W0 m ρ c) (Proc.devRef .tc main_arg0) = _
  dsimp only [hostOps0]; after_results <;> rfl
theorem W1_arg1 (c : Dev nD) : W1 m ρ c (Proc.devRef .tc main_arg1) = m ((c : Thread nD τ).loc main_arg1) := by
  show StableHlo.after hostOps0 (W0 m ρ c) (Proc.devRef .tc main_arg1) = _
  dsimp only [hostOps0]; after_results <;> rfl
theorem W1_arg2 (c : Dev nD) : W1 m ρ c (Proc.devRef .tc main_arg2) = m ((c : Thread nD τ).loc main_arg2) := by
  show StableHlo.after hostOps0 (W0 m ρ c) (Proc.devRef .tc main_arg2) = _
  dsimp only [hostOps0]; after_results <;> rfl
theorem W1_arg3 (c : Dev nD) : W1 m ρ c (Proc.devRef .tc main_arg3) = m ((c : Thread nD τ).loc main_arg3) := by
  show StableHlo.after hostOps0 (W0 m ρ c) (Proc.devRef .tc main_arg3) = _
  dsimp only [hostOps0]; after_results <;> rfl
theorem W1_arg4 (c : Dev nD) : W1 m ρ c (Proc.devRef .tc main_arg4) = m ((c : Thread nD τ).loc main_arg4) := by
  show StableHlo.after hostOps0 (W0 m ρ c) (Proc.devRef .tc main_arg4) = _
  dsimp only [hostOps0]; after_results <;> rfl
/-- The source column of the edge list. -/
theorem W1_v1 (c : Dev nD) : W1 m ρ c (Proc.devRef .tc main_v1) = val_main_v1 (F := Ideal) (m ((c : Thread nD τ).loc main_arg1)) := by
  show StableHlo.after hostOps0 (W0 m ρ c) (Proc.devRef .tc main_v1) = _
  dsimp only [hostOps0]; after_results; rfl
/-- The destination column of the edge list. -/
theorem W1_v3 (c : Dev nD) : W1 m ρ c (Proc.devRef .tc main_v3) = val_main_v3 (F := Ideal) (m ((c : Thread nD τ).loc main_arg1)) := by
  show StableHlo.after hostOps0 (W0 m ρ c) (Proc.devRef .tc main_v3) = _
  dsimp only [hostOps0]; after_results; rfl

/-- Writing into a buffer the contents it already holds changes nothing. (It lets a later stretch be read from a boundary
    with the few buffers it reads named by their values.) -/
theorem leaf_self (y : Ref sig .tc) (v : y.ty.Contents (Elt Ideal)) (hy) (F : Valuation τ sig (Elt Ideal))
    (h : F (Proc.devRef .tc y) = v) : (StableHlo.nullary (τ := τ) y v hy).result F = F := by
  funext b
  by_cases hb : b ∈ (StableHlo.nullary (τ := τ) y v hy).writes
  · obtain rfl : b = Proc.devRef .tc y := Finset.mem_singleton.mp hb
    rw [StableHlo.nullary_result]; exact h.symm
  · exact (StableHlo.nullary (τ := τ) y v hy).result_of_not_mem F hb

/-! ## Buffers no region writes: carried from boundary to boundary -/

theorem W2_arg1 (c : Dev nD) : W2 m ρ c (Proc.devRef .tc main_arg1) = m ((c : Thread nD τ).loc main_arg1) :=
  (W2_of_ne m ρ c main_arg1 (by decide)).trans (W1_arg1 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_v1 (c : Dev nD) : W2 m ρ c (Proc.devRef .tc main_v1) = val_main_v1 (F := Ideal) (m ((c : Thread nD τ).loc main_arg1)) :=
  (W2_of_ne m ρ c main_v1 (by decide)).trans (W1_v1 m ρ c)
theorem W2_v3 (c : Dev nD) : W2 m ρ c (Proc.devRef .tc main_v3) = val_main_v3 (F := Ideal) (m ((c : Thread nD τ).loc main_arg1)) :=
  (W2_of_ne m ρ c main_v3 (by decide)).trans (W1_v3 m ρ c)

theorem W3_arg3 (c : Dev nD) : W3 m ρ c (Proc.devRef .tc main_arg3) = m ((c : Thread nD τ).loc main_arg3) := by
  show StableHlo.after hostOps1 (W2 m ρ c) (Proc.devRef .tc main_arg3) = _
  dsimp only [hostOps1]; after_results; exact W2_arg3 m ρ c
theorem W3_arg4 (c : Dev nD) : W3 m ρ c (Proc.devRef .tc main_arg4) = m ((c : Thread nD τ).loc main_arg4) := by
  show StableHlo.after hostOps1 (W2 m ρ c) (Proc.devRef .tc main_arg4) = _
  dsimp only [hostOps1]; after_results; exact W2_arg4 m ρ c
theorem W3_v1 (c : Dev nD) : W3 m ρ c (Proc.devRef .tc main_v1) = val_main_v1 (F := Ideal) (m ((c : Thread nD τ).loc main_arg1)) := by
  show StableHlo.after hostOps1 (W2 m ρ c) (Proc.devRef .tc main_v1) = _
  dsimp only [hostOps1]; after_results; exact W2_v1 m ρ c
theorem W3_v3 (c : Dev nD) : W3 m ρ c (Proc.devRef .tc main_v3) = val_main_v3 (F := Ideal) (m ((c : Thread nD τ).loc main_arg1)) := by
  show StableHlo.after hostOps1 (W2 m ρ c) (Proc.devRef .tc main_v3) = _
  dsimp only [hostOps1]; after_results; exact W2_v3 m ρ c

theorem W4_arg4 (c : Dev nD) : W4 m ρ c (Proc.devRef .tc main_arg4) = m ((c : Thread nD τ).loc main_arg4) :=
  (W4_of_ne m ρ c main_arg4 (by decide)).trans (W3_arg4 m ρ c)
theorem W4_v1 (c : Dev nD) : W4 m ρ c (Proc.devRef .tc main_v1) = val_main_v1 (F := Ideal) (m ((c : Thread nD τ).loc main_arg1)) :=
  (W4_of_ne m ρ c main_v1 (by decide)).trans (W3_v1 m ρ c)
theorem W4_v3 (c : Dev nD) : W4 m ρ c (Proc.devRef .tc main_v3) = val_main_v3 (F := Ideal) (m ((c : Thread nD τ).loc main_arg1)) :=
  (W4_of_ne m ρ c main_v3 (by decide)).trans (W3_v3 m ρ c)

theorem W7_arg4 (c : Dev nD) : W7 m ρ c (Proc.devRef .tc main_arg4) = m ((c : Thread nD τ).loc main_arg4) := by
  show StableHlo.after hostOps2_2 (StableHlo.after hostOps2_1 (StableHlo.after hostOps2 (W4 m ρ c))) (Proc.devRef .tc main_arg4) = _
  dsimp only [hostOps2_2, hostOps2_1, hostOps2]; after_results_simp; exact W4_arg4 m ρ c
theorem W7_v1 (c : Dev nD) : W7 m ρ c (Proc.devRef .tc main_v1) = val_main_v1 (F := Ideal) (m ((c : Thread nD τ).loc main_arg1)) := by
  show StableHlo.after hostOps2_2 (StableHlo.after hostOps2_1 (StableHlo.after hostOps2 (W4 m ρ c))) (Proc.devRef .tc main_v1) = _
  dsimp only [hostOps2_2, hostOps2_1, hostOps2]; after_results_simp; exact W4_v1 m ρ c

theorem W8_arg4 (c : Dev nD) : W8 m ρ c (Proc.devRef .tc main_arg4) = m ((c : Thread nD τ).loc main_arg4) :=
  (W8_of_ne m ρ c main_arg4 (by decide)).trans (W7_arg4 m ρ c)
theorem W8_v1 (c : Dev nD) : W8 m ρ c (Proc.devRef .tc main_v1) = val_main_v1 (F := Ideal) (m ((c : Thread nD τ).loc main_arg1)) :=
  (W8_of_ne m ρ c main_v1 (by decide)).trans (W7_v1 m ρ c)

/-- The bias as a single row. -/
theorem W9_v75 (c : Dev nD) : W9 m ρ c (Proc.devRef .tc main_v75) = shapeCast S1x128 (m ((c : Thread nD τ).loc main_arg4)) shapeCasts_S128_S1x128 := by
  show StableHlo.after hostOps3 (W8 m ρ c) (Proc.devRef .tc main_v75) = _
  dsimp only [hostOps3]; after_results
  rw [W8_arg4 m ρ c]
  rfl

/-! ## Region 0 and the second stretch: the node keys, gathered at both endpoints of every edge -/

section
variable (hr0 : ∀ (V : (c : Dev nD) → (b : Ref sig .tc) → Buf (Elt Ideal) ((c : Thread nD τ).loc b)) (c : Dev nD),
  (dat0 (F := Ideal) V c).arrAt 2 cfg0.N = keys (V c main_arg0) (V c main_arg2))
include hr0

/-- The node keys. -/
theorem W2_v4 (c : Dev nD) : W2 m ρ c (Proc.devRef .tc main_v4) = val_main_v4 (F := Ideal) (m ((c : Thread nD τ).loc main_arg0)) (m ((c : Thread nD τ).loc main_arg2)) := by
  refine (W2_arr m ρ c 2).trans ?_
  rw [hr0 (V1 m ρ) c]
  show keys (W1 m ρ c (Proc.devRef .tc main_arg0)) (W1 m ρ c (Proc.devRef .tc main_arg2)) = _
  rw [W1_arg0 m ρ c, W1_arg2 m ρ c]
  exact (dot_keys _ _).symm

/-- The keys gathered at both endpoints of every edge. -/
theorem W3_v11 (c : Dev nD) : W3 m ρ c (Proc.devRef .tc main_v11) = val_main_v11 (F := Ideal) (m ((c : Thread nD τ).loc main_arg0)) (m ((c : Thread nD τ).loc main_arg1)) (m ((c : Thread nD τ).loc main_arg2)) := by
  show StableHlo.after hostOps1 (W2 m ρ c) (Proc.devRef .tc main_v11) = _
  dsimp only [hostOps1]; after_results
  rw [W2_v4 m ρ hr0 c, W2_arg1 m ρ c]
  rfl
/-- The same, each edge's two key rows laid side by side. -/
theorem W3_v12 (c : Dev nD) : W3 m ρ c (Proc.devRef .tc main_v12) = val_main_v12 (F := Ideal) (m ((c : Thread nD τ).loc main_arg0)) (m ((c : Thread nD τ).loc main_arg1)) (m ((c : Thread nD τ).loc main_arg2)) := by
  show StableHlo.after hostOps1 (W2 m ρ c) (Proc.devRef .tc main_v12) = _
  dsimp only [hostOps1]; after_results
  rw [W2_v4 m ρ hr0 c, W2_arg1 m ρ c]
  rfl
theorem W4_v11 (c : Dev nD) : W4 m ρ c (Proc.devRef .tc main_v11) = val_main_v11 (F := Ideal) (m ((c : Thread nD τ).loc main_arg0)) (m ((c : Thread nD τ).loc main_arg1)) (m ((c : Thread nD τ).loc main_arg2)) :=
  (W4_of_ne m ρ c main_v11 (by decide)).trans (W3_v11 m ρ hr0 c)

/-- The destination endpoint's key row of every edge. -/
theorem W7_v64 (c : Dev nD) : W7 m ρ c (Proc.devRef .tc main_v64)
    = shapeCast S320000x128 (extractStridedSlice S320000x1x128 ![0, 1, 0] (val_main_v11 (F := Ideal) (m ((c : Thread nD τ).loc main_arg0)) (m ((c : Thread nD τ).loc main_arg1)) (m ((c : Thread nD τ).loc main_arg2)))
        slices_S320000x2x128_S320000x1x128_0_1_0) shapeCasts_S320000x1x128_S320000x128 := by
  show StableHlo.after hostOps2_2 (StableHlo.after hostOps2_1 (StableHlo.after hostOps2 (W4 m ρ c))) (Proc.devRef .tc main_v64) = _
  dsimp only [hostOps2_2, hostOps2_1, hostOps2]; after_results_simp
  rw [W4_v11 m ρ hr0 c]
  rfl

/-! ## Region 1 and the third stretch: the edge scores, normalised over each source node, scattered into the dense
    node-by-node table and read back transposed -/

section
variable (hr1 : ∀ (V : (c : Dev nD) → (b : Ref sig .tc) → Buf (Elt Ideal) ((c : Thread nD τ).loc b)) (c : Dev nD),
  (dat1 (F := Ideal) V c).arrAt 2 cfg1.N = scores (V c main_v12) (V c main_arg3))
include hr1

/-- The edge scores. -/
theorem W4_v13 (c : Dev nD) : W4 m ρ c (Proc.devRef .tc main_v13) = val_main_v14 (F := Ideal) (m ((c : Thread nD τ).loc main_arg0)) (m ((c : Thread nD τ).loc main_arg1)) (m ((c : Thread nD τ).loc main_arg2)) (m ((c : Thread nD τ).loc main_arg3)) := by
  refine (W4_arr m ρ c 2).trans ?_
  rw [hr1 (V3 m ρ) c]
  show scores (W3 m ρ c (Proc.devRef .tc main_v12)) (W3 m ρ c (Proc.devRef .tc main_arg3)) = _
  rw [W3_v12 m ρ hr0 c, W3_arg3 m ρ c]
  exact (exp_dot_scores _ _).symm

set_option maxHeartbeats 4000000 in
/-- The coefficient of every edge, as a column. -/
theorem W7_v65 (c : Dev nD) : W7 m ρ c (Proc.devRef .tc main_v65)
    = shapeCast S320000x1 (val_main_v63 (F := Ideal) (m ((c : Thread nD τ).loc main_arg0)) (m ((c : Thread nD τ).loc main_arg1)) (m ((c : Thread nD τ).loc main_arg2)) (m ((c : Thread nD τ).loc main_arg3))) shapeCasts_S320000_S320000x1 := by
  have e : W4 m ρ c = StableHlo.after
      [StableHlo.nullary main_v13 (val_main_v14 (F := Ideal) (m ((c : Thread nD τ).loc main_arg0)) (m ((c : Thread nD τ).loc main_arg1)) (m ((c : Thread nD τ).loc main_arg2)) (m ((c : Thread nD τ).loc main_arg3))),
       StableHlo.nullary main_v1 (val_main_v1 (F := Ideal) (m ((c : Thread nD τ).loc main_arg1))),
       StableHlo.nullary main_v3 (val_main_v3 (F := Ideal) (m ((c : Thread nD τ).loc main_arg1)))] (W4 m ρ c) := by
    simp only [StableHlo.after_cons, StableHlo.after_nil]
    rw [leaf_self main_v13 _ _ _ (W4_v13 m ρ hr0 hr1 c), leaf_self main_v1 _ _ _ (W4_v1 m ρ c),
      leaf_self main_v3 _ _ _ (W4_v3 m ρ c)]
  show StableHlo.after hostOps2_2 (StableHlo.after hostOps2_1 (StableHlo.after hostOps2 (W4 m ρ c))) (Proc.devRef .tc main_v65) = _
  rw [e]
  dsimp only [hostOps2_2, hostOps2_1, hostOps2]; after_results_simp
  simp only [cast_eq]
  rfl

/-! ## Region 2 and the fourth stretch: the weighted destination features, summed into their source nodes -/

section
variable (hr2 : ∀ (V : (c : Dev nD) → (b : Ref sig .tc) → Buf (Elt Ideal) ((c : Thread nD τ).loc b)) (c : Dev nD),
  (dat2 (F := Ideal) V c).arrAt 2 cfg2.N = weighted (V c main_v64) (V c main_v65))
include hr2

/-- The weighted destination features. -/
theorem W8_v66 (c : Dev nD) : W8 m ρ c (Proc.devRef .tc main_v66) = val_main_v69 (F := Ideal) (m ((c : Thread nD τ).loc main_arg0)) (m ((c : Thread nD τ).loc main_arg1)) (m ((c : Thread nD τ).loc main_arg2)) (m ((c : Thread nD τ).loc main_arg3)) := by
  refine (W8_arr m ρ c 2).trans ?_
  rw [hr2 (V7 m ρ) c]
  show weighted (W7 m ρ c (Proc.devRef .tc main_v64)) (W7 m ρ c (Proc.devRef .tc main_v65)) = _
  rw [W7_v64 m ρ hr0 c, W7_v65 m ρ hr0 hr1 c]
  exact (weighted_eq _ _ _ _ _ _ _).symm

/-- The aggregate per source node. -/
theorem W9_v74 (c : Dev nD) : W9 m ρ c (Proc.devRef .tc main_v74) = val_main_v76 (F := Ideal) (m ((c : Thread nD τ).loc main_arg0)) (m ((c : Thread nD τ).loc main_arg1)) (m ((c : Thread nD τ).loc main_arg2)) (m ((c : Thread nD τ).loc main_arg3)) := by
  show StableHlo.after hostOps3 (W8 m ρ c) (Proc.devRef .tc main_v74) = _
  dsimp only [hostOps3]; after_results_simp
  rw [W8_v66 m ρ hr0 hr1 hr2 c, W8_v1 m ρ c]
  rfl

/-! ## Region 3: the result -/

section
variable (hr3 : ∀ (V : (c : Dev nD) → (b : Ref sig .tc) → Buf (Elt Ideal) ((c : Thread nD τ).loc b)) (c : Dev nD),
  (dat3 (F := Ideal) V c).arrAt 2 cfg3.N = finish (V c main_v74) (V c main_v75))
include hr3

/-- At the return the kernel's result array is the reference's result stage of the five argument arrays. -/
theorem W10_v76 (c : Dev nD) : W10 m ρ c (Proc.devRef .tc main_v76) = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W10_arr m ρ c 2).trans ?_
  rw [hr3 (V9 m ρ) c]
  show finish (W9 m ρ c (Proc.devRef .tc main_v74)) (W9 m ρ c (Proc.devRef .tc main_v75)) = _
  rw [W9_v74 m ρ hr0 hr1 hr2 c, W9_v75 m ρ c]
  exact (finish_eq _ _ _ _ _ _).symm

end
end
end
end

end Cert.KernelIdeal.Boundary

end
-- ==== Proof.Region0.lean ====
/-
  The node keys, block by block.  The first tiled stage walks the 10000 × 128 feature array in five steps; step t holds the
  2000 rows 2000·t … 2000·t + 1999 together with the whole 128 × 128 weight matrix, multiplies the two (rounding to bf16 first,
  which changes nothing over the extended reals) into an accumulator that starts at zero, and writes the 2000 × 128 product
  back over the same rows of the result array.  Entry (p, q) of the block product is Σ_k block(p, k) · w(k, q); row p of block t
  is row 2000·t + p of the features, so the entry that lands at row r = 2000·t + p, column q of the result is
  Σ_k x(r, k) · w(k, q) — the whole-array product at (r, q).  Every row r lies in exactly the block t = r / 2000, so the five
  write-backs fill the result array with the whole-array product.
-/
import proofs.«105251_j66984309948497_1_alg».proof.Proof.Gen.KernelIdeal.Frame
import proofs.«105251_j66984309948497_1_alg».proof.Proof.Stages
import proofs.«105251_j66984309948497_1_alg».proof.Proof.LibPlainDot
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-buffer access, as the constant function. -/
theorem zero_offsets : (![0, 0] : Fin 2 → Nat) = fun _ => 0 := funext fun a => by fin_cases a <;> rfl

/-- One block product at an entry: row p of the left block against column q of the right block, summed over the 128
    shared positions.  Rounding the operands to bf16 is the identity here, and the accumulator starts at zero. -/
theorem block_product_apply (x0 : Vec Ideal S2000x128 .f32) (x1 : Vec Ideal S128x128 .f32) (p : Fin 2000) (q : Fin 128) :
    k0_pay1 x0 x1 (ix2 p q) = ∑ k : Fin 128, x0 (ix2 p k) * x1 (ix2 k q) := by
  unfold k0_pay1
  rw [show dot_S2000x128_S128x128_S2000x128_1_0_0_1_n_n = DotDims.plain 2000 128 128 from rfl]
  refine (PlainDot.matmul_apply_ix2 none _ _ p q).trans ?_
  rfl

/-- The whole-array product at an index whose coordinates are r and q. -/
theorem keys_apply_of (x : FVec Ideal ⟨2, ![10000, 128]⟩ .f32) (w : FVec Ideal ⟨2, ![128, 128]⟩ .f32)
    (i : (⟨2, ![10000, 128]⟩ : Shape).Idx) (r : Fin 10000) (q : Fin 128) (h0 : (i 0).val = r.val) (h1 : (i 1).val = q.val) :
    Cert.EdgeAttention.keys x w i = ∑ k : Fin 128, x (ix2 r k) * w (ix2 k q) := by
  have hi : i = ix2 r q := by
    funext a; apply Fin.ext
    match a with
    | ⟨0, _⟩ => exact h0
    | ⟨1, _⟩ => exact h1
  subst hi; rfl

/-- Where the three windows sit at step t: the feature rows and the result rows at row block t, column block 0; the weight
    matrix always at block (0, 0).  Decided over the five steps. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block of step t, entry (p, k), is the feature array at row 2000·t + p, column k. -/
theorem feature_block_apply (c : Dev nD) (t : Fin cfg0.N) (p : Fin 2000) (k : Fin 128) (r : Fin 10000)
    (hr : r.val = 2000 * t.val + p.val) :
    (iblk0 V c 0 t : Vec Ideal S2000x128 .f32) (ix2 p k) = (V c main_arg0 : S10000x128.Idx → Elt Ideal .f32) (ix2 r k) := by
  obtain ⟨e0, e1, -⟩ := block_positions t
  unfold iblk0
  rw [View.read_apply]
  show V c main_arg0 _ = V c main_arg0 _
  refine congrArg _ ?_
  funext a
  apply Fin.ext
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- The weight block of any step is the whole weight matrix. -/
theorem weight_block_apply (c : Dev nD) (t : Fin cfg0.N) (k : Fin 128) (q : Fin 128) :
    (iblk0 V c 1 t : Vec Ideal S128x128 .f32) (ix2 k q) = (V c main_arg2 : S128x128.Idx → Elt Ideal .f32) (ix2 k q) := by
  obtain ⟨-, -, e2, e3, -⟩ := block_positions t
  unfold iblk0
  rw [View.read_apply]
  show V c main_arg2 _ = V c main_arg2 _
  refine congrArg _ ?_
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- What step t writes back is block t of the whole-array product. -/
theorem flushed_eq (c : Dev nD) (t : Fin cfg0.N) :
    (dat0 (F := Ideal) V c).flushed 2 t
      = ((cfg0.win 2).blk t).view.read (Elt Ideal) (Cert.EdgeAttention.keys (V c main_arg0) (V c main_arg2)) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x128) zero_offsets]
  obtain ⟨-, -, -, -, e4, e5⟩ := block_positions t
  funext j
  obtain ⟨p, q, rfl⟩ : ∃ (p : Fin 2000) (q : Fin 128), j = ix2 p q := ⟨j 0, j 1, eq_ix2 j⟩
  have hN : cfg0.N = 5 := N_0
  have hr : 2000 * t.val + p.val < 10000 := by have := t.isLt; have := p.isLt; omega
  show k0_pay1 (iblk0 V c 0 t) (iblk0 V c 1 t) (ix2 p q)
      = Cert.EdgeAttention.keys (V c main_arg0) (V c main_arg2) (((cfg0.win 2).blk t).view.emb (ix2 p q))
  refine Eq.trans ?_ (keys_apply_of _ _ _ ⟨2000 * t.val + p.val, hr⟩ q ?_ ?_).symm
  · refine (block_product_apply (iblk0 V c 0 t) (iblk0 V c 1 t) p q).trans (Finset.sum_congr rfl fun k _ => ?_)
    rw [feature_block_apply V c t p k ⟨2000 * t.val + p.val, hr⟩ rfl, weight_block_apply V c t k q]
  · show win0_2.index t (0 : Fin 2) * 2000 + 1 * p.val = 2000 * t.val + p.val
    rw [e4]; omega
  · show win0_2.index t (1 : Fin 2) * 128 + 1 * q.val = q.val
    rw [e5]; omega

/-- An index of the result array lies in step t's block exactly when, on each axis, its coordinate is within the block's
    range there. -/
theorem mem_block (t : Fin cfg0.N) (i : S10000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v4).slice (win0_2.rect t)).set ↔ _
  rw [View.set_slice_whole, Rect.mem_set_unit]
  exact Iff.rfl

/-- Every entry of the result array is written: row r belongs to step r / 2000, whose block spans all 128 columns. -/
theorem rows_covered (i : S10000x128.Idx) :
    ∃ t : Fin cfg0.N, (cfg0.win 2).flush t = true ∧ i ∈ ((cfg0.win 2).blk t).view.set := by
  have hN : cfg0.N = 5 := N_0
  have hi0 : (i 0).val < 10000 := (i 0).isLt
  have hi1 : (i 1).val < 128 := (i 1).isLt
  have ht : (i 0).val / 2000 < cfg0.N := by omega
  obtain ⟨-, -, -, -, e4, e5⟩ := block_positions ⟨(i 0).val / 2000, ht⟩
  refine ⟨⟨(i 0).val / 2000, ht⟩, flush0_2 _, ?_⟩
  rw [mem_block]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val
      ∧ (i 1).val < win0_2.index ⟨(i 0).val / 2000, ht⟩ (1 : Fin 2) * 128 + 128
    rw [e5]; omega

/-- After the five steps the result array holds the whole-array product of the features and the weights. -/
theorem region0_array (c : Dev nD) :
    (dat0 (F := Ideal) V c).arrAt 2 cfg0.N = Cert.EdgeAttention.keys (V c main_arg0) (V c main_arg2) :=
  (dat0 (F := Ideal) V c).arrAt_eq_of_cover 2 (Cert.EdgeAttention.keys (V c main_arg0) (V c main_arg2))
    (fun t _ => flushed_eq V c t) rows_covered

end Cert.KernelIdeal.Region0

end
-- ==== Proof.Region1.lean ====
/-
  The edge scores, block by block.  The second tiled stage walks the 320000 × 256 array of concatenated endpoint features in
  eighty steps; step t holds the 4000 rows 4000·t … 4000·t + 3999 together with the whole 256 × 1 attention vector, multiplies
  the two (rounding to bf16 first, which changes nothing over the extended reals) into an accumulator that starts at zero,
  takes the exponential of each of the 4000 sums, and writes the resulting 4000 × 1 column back over the same rows of the
  score array.  Entry p of the block is exp (Σ_k block(p, k) · a(k, 0)); row p of block t is row 4000·t + p of the features,
  so the entry that lands at row e = 4000·t + p of the score array is exp (Σ_k g(e, k) · a(k, 0)) — the whole-array score of
  edge e.  Every row e lies in exactly the block t = e / 4000, so the eighty write-backs fill the score array.
-/
import proofs.«105251_j66984309948497_1_alg».proof.Proof.Gen.KernelIdeal.Frame
import proofs.«105251_j66984309948497_1_alg».proof.Proof.Stages
import proofs.«105251_j66984309948497_1_alg».proof.Proof.LibPlainDot
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-buffer access, as the constant function. -/
theorem zero_offsets : (![0, 0] : Fin 2 → Nat) = fun _ => 0 := funext fun a => by fin_cases a <;> rfl

/-- One block of scores at an entry: the exponential of row p of the feature block against the attention column, summed
    over the 256 shared positions.  The reshape to the same shape and the rounding of the operands to bf16 are the identity
    here, and the accumulator starts at zero. -/
theorem block_score_apply (x0 : Vec Ideal S4000x256 .f32) (x1 : Vec Ideal S256x1 .f32) (p : Fin 4000) (q : Fin 1) :
    k1_pay1 x0 x1 (ix2 p q) = Ideal.exp (∑ k : Fin 256, x0 (ix2 p k) * x1 (ix2 k q)) := by
  unfold k1_pay1
  rw [show dot_S4000x256_S256x1_S4000x1_1_0_0_1_n_n = DotDims.plain 4000 256 1 from rfl]
  simp only [shapeCast_self]
  show Ideal.exp _ = Ideal.exp _
  refine congrArg Ideal.exp ?_
  refine (PlainDot.matmul_apply_ix2 none _ _ p q).trans ?_
  rfl

/-- The whole-array score at an index whose coordinates are e and q. -/
theorem scores_apply_of (g : FVec Ideal ⟨2, ![320000, 256]⟩ .f32) (a : FVec Ideal ⟨2, ![256, 1]⟩ .f32)
    (i : (⟨2, ![320000, 1]⟩ : Shape).Idx) (e : Fin 320000) (q : Fin 1) (h0 : (i 0).val = e.val) (h1 : (i 1).val = q.val) :
    Cert.EdgeAttention.scores g a i = Ideal.exp (∑ k : Fin 256, g (ix2 e k) * a (ix2 k q)) := by
  have hi : i = ix2 e q := by
    funext b; apply Fin.ext
    match b with
    | ⟨0, _⟩ => exact h0
    | ⟨1, _⟩ => exact h1
  subst hi; rfl

/-- Where the three windows sit at step t: the feature rows and the score rows at row block t, column block 0; the
    attention vector always at block (0, 0).  Decided over the eighty steps. -/
theorem block_positions : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The feature block of step t, entry (p, k), is the feature array at row 4000·t + p, column k. -/
theorem feature_block_apply (c : Dev nD) (t : Fin cfg1.N) (p : Fin 4000) (k : Fin 256) (e : Fin 320000)
    (he : e.val = 4000 * t.val + p.val) :
    (iblk1 V c 0 t : Vec Ideal S4000x256 .f32) (ix2 p k) = (V c main_v12 : S320000x256.Idx → Elt Ideal .f32) (ix2 e k) := by
  obtain ⟨e0, e1, -⟩ := block_positions t
  unfold iblk1
  rw [View.read_apply]
  show V c main_v12 _ = V c main_v12 _
  refine congrArg _ ?_
  funext b
  apply Fin.ext
  match b with
  | ⟨0, _⟩ => show win1_0.index t (0 : Fin 2) * 4000 + 1 * p.val = e.val; rw [e0, he]; omega
  | ⟨1, _⟩ => show win1_0.index t (1 : Fin 2) * 256 + 1 * k.val = k.val; rw [e1]; omega

/-- The attention block of any step is the whole attention vector. -/
theorem attention_block_apply (c : Dev nD) (t : Fin cfg1.N) (k : Fin 256) (q : Fin 1) :
    (iblk1 V c 1 t : Vec Ideal S256x1 .f32) (ix2 k q) = (V c main_arg3 : S256x1.Idx → Elt Ideal .f32) (ix2 k q) := by
  obtain ⟨-, -, e2, e3, -⟩ := block_positions t
  unfold iblk1
  rw [View.read_apply]
  show V c main_arg3 _ = V c main_arg3 _
  refine congrArg _ ?_
  funext b
  apply Fin.ext
  match b with
  | ⟨0, _⟩ => show win1_1.index t (0 : Fin 2) * 256 + 1 * k.val = k.val; rw [e2]; omega
  | ⟨1, _⟩ => show win1_1.index t (1 : Fin 2) * 1 + 1 * q.val = q.val; rw [e3]; omega

/-- What step t writes back is block t of the whole-array scores. -/
theorem flushed_eq (c : Dev nD) (t : Fin cfg1.N) :
    (dat1 (F := Ideal) V c).flushed 2 t
      = ((cfg1.win 2).blk t).view.read (Elt Ideal) (Cert.EdgeAttention.scores (V c main_v12) (V c main_arg3)) := by
  show (cfg1.win 2).cut (grid1.coords t) ((dat1 V c).after 2 t) = _
  rw [after1_2]
  unfold out1_2
  rw [View.canon_unit_zero zero_offsets]
  simp only [View.ld_unit_zero (S := S4000x256) zero_offsets, View.ld_unit_zero (S := S256x1) zero_offsets]
  obtain ⟨-, -, -, -, e4, e5⟩ := block_positions t
  funext j
  obtain ⟨p, q, rfl⟩ : ∃ (p : Fin 4000) (q : Fin 1), j = ix2 p q := ⟨j 0, j 1, eq_ix2 j⟩
  have hN : cfg1.N = 80 := N_1
  have he : 4000 * t.val + p.val < 320000 := by have := t.isLt; have := p.isLt; omega
  show k1_pay1 (iblk1 V c 0 t) (iblk1 V c 1 t) (ix2 p q)
      = Cert.EdgeAttention.scores (V c main_v12) (V c main_arg3) (((cfg1.win 2).blk t).view.emb (ix2 p q))
  refine Eq.trans ?_ (scores_apply_of _ _ _ ⟨4000 * t.val + p.val, he⟩ q ?_ ?_).symm
  · refine (block_score_apply (iblk1 V c 0 t) (iblk1 V c 1 t) p q).trans (congrArg Ideal.exp ?_)
    refine Finset.sum_congr rfl fun k _ => ?_
    rw [feature_block_apply V c t p k ⟨4000 * t.val + p.val, he⟩ rfl, attention_block_apply V c t k q]
  · show win1_2.index t (0 : Fin 2) * 4000 + 1 * p.val = 4000 * t.val + p.val
    rw [e4]; omega
  · show win1_2.index t (1 : Fin 2) * 1 + 1 * q.val = q.val
    rw [e5]; omega

/-- An index of the score array lies in step t's block exactly when, on each axis, its coordinate is within the block's
    range there. -/
theorem mem_block (t : Fin cfg1.N) (i : S320000x1.Idx) :
    i ∈ ((cfg1.win 2).blk t).view.set ↔ ∀ a : Fin 2, win1_2.index t a * S4000x1.size a ≤ (i a).val
      ∧ (i a).val < win1_2.index t a * S4000x1.size a + S4000x1.size a := by
  show i ∈ ((View.whole main_v13).slice (win1_2.rect t)).set ↔ _
  rw [View.set_slice_whole, Rect.mem_set_unit]
  exact Iff.rfl

/-- Every entry of the score array is written: row e belongs to step e / 4000, whose block spans the one column. -/
theorem rows_covered (i : S320000x1.Idx) :
    ∃ t : Fin cfg1.N, (cfg1.win 2).flush t = true ∧ i ∈ ((cfg1.win 2).blk t).view.set := by
  have hN : cfg1.N = 80 := N_1
  have hi0 : (i 0).val < 320000 := (i 0).isLt
  have hi1 : (i 1).val < 1 := (i 1).isLt
  have ht : (i 0).val / 4000 < cfg1.N := by omega
  obtain ⟨-, -, -, -, e4, e5⟩ := block_positions ⟨(i 0).val / 4000, ht⟩
  refine ⟨⟨(i 0).val / 4000, ht⟩, flush1_2 _, ?_⟩
  rw [mem_block]
  intro a
  match a with
  | ⟨0, _⟩ =>
    show win1_2.index ⟨(i 0).val / 4000, ht⟩ (0 : Fin 2) * 4000 ≤ (i 0).val
      ∧ (i 0).val < win1_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win1_2.index ⟨(i 0).val / 4000, ht⟩ (1 : Fin 2) * 1 ≤ (i 1).val
      ∧ (i 1).val < win1_2.index ⟨(i 0).val / 4000, ht⟩ (1 : Fin 2) * 1 + 1
    rw [e5]; omega

/-- After the eighty steps the score array holds the whole-array scores of the features and the attention vector. -/
theorem region1_array (c : Dev nD) :
    (dat1 (F := Ideal) V c).arrAt 2 cfg1.N = Cert.EdgeAttention.scores (V c main_v12) (V c main_arg3) :=
  (dat1 (F := Ideal) V c).arrAt_eq_of_cover 2 (Cert.EdgeAttention.scores (V c main_v12) (V c main_arg3))
    (fun t _ => flushed_eq V c t) rows_covered

end Cert.KernelIdeal.Region1

end
-- ==== Proof.Region2.lean ====
/-
  The weighting stage read as one array. The stage walks the 320000×128 edge-feature array in eighty blocks of 4000 rows
  together with the same rows of the 320000×1 coefficient column; at each block it multiplies every row by that row's
  coefficient (the column repeated along the 128 lanes) and writes the block back to the same rows of the result. So entry
  `(e, q)` of the result is `g (e, q) · co (e, 0)`: it depends on the feature entry at the same place and on the
  coefficient of the same row, and on nothing else. The steps: a column repeated along the lanes read at an index; one
  element of the stored block from the loaded blocks; where each window's block sits at a grid point; each loaded block's
  element as an element of its array; the block a point writes back as that point's rows of the whole-array function; the
  eighty blocks fill the array; hence the array after the stage is the whole-array function.
-/
import proofs.«105251_j66984309948497_1_alg».proof.Proof.Gen.KernelIdeal.Frame
import proofs.«105251_j66984309948497_1_alg».proof.Proof.Stages
import Idealize.ShloMosaic.Lib.Pipeline.Value
import Idealize.ShloMosaic.Lib.ValueLayout
import Idealize.ShloMosaic.Lib.ValueIdx

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The offsets of a load or store that starts at the buffer's corner. -/
theorem zero_offsets : (![0, 0] : Fin 2 → Nat) = fun _ => 0 := funext fun a => by fin_cases a <;> rfl

/-- A `[4000, 1]` column broadcast to `[4000, 128]` reads, at `(p, q)`, the column's entry in row `p`: the unit axis
    is read at 0, the row axis where it is asked. -/
theorem column_broadcast_at {α : Type} (v : (⟨2, ![4000, 1]⟩ : Shape).Idx → α)
    (h : (⟨2, ![4000, 1]⟩ : Shape).Broadcasts ⟨2, ![4000, 128]⟩) (p : Fin 4000) (q : Fin 128) :
    broadcastTo ⟨2, ![4000, 128]⟩ v h (ix2 p q) = v (ix2 p (0 : Fin 1)) := by
  refine broadcastTo_apply v h (ix2 p q) (ix2 p (0 : Fin 1)) fun ax => ?_
  match ax with
  | ⟨0, _⟩ =>
    exact (if_neg (by decide : ¬ ((4000 : ℕ) = 1))).symm
  | ⟨1, _⟩ => rfl

/-- One element of what the body stores, from the two blocks it loaded: the feature block's element times the
    coefficient column's entry in the same row (the column is repeated along the 128 lanes). -/
theorem payload_at (x0 : Vec Ideal S4000x128 .f32) (x1 : Vec Ideal S4000x1 .f32) (p : Fin 4000) (q : Fin 128) :
    k2_pay1 x0 x1 (ix2 p q) = x0 (ix2 p q) * x1 (ix2 p (0 : Fin 1)) := by
  unfold k2_pay1
  simp only [shapeCast_self]
  rw [mulf_apply, column_broadcast_at]

/-- Where the three windows' blocks sit at grid point `t`: all three at block row `t`, block column 0. -/
theorem index_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole-array function: rows `4000 t … 4000 t + 3999` of the features
    scaled row by row. Element `(p, q)` of the block depends on `g (4000 t + p, q)` and `co (4000 t + p, 0)` only. -/
theorem flushed_eq (c : Dev nD) (t : Fin cfg2.N) :
    (dat2 (F := Ideal) V c).flushed 2 t
      = ((cfg2.win 2).blk t).view.read (Elt Ideal) (Cert.EdgeAttention.weighted (V c main_v64) (V c main_v65)) := by
  show (cfg2.win 2).cut (grid2.coords t) ((dat2 V c).after 2 t) = _
  rw [after2_2]
  unfold out2_2
  rw [View.canon_unit_zero zero_offsets]
  simp only [View.ld_unit_zero (S := S4000x128) zero_offsets, View.ld_unit_zero (S := S4000x1) zero_offsets]
  obtain ⟨e00, e01, e10, e11, e20, e21⟩ := index_facts t
  funext j
  obtain ⟨p, q, rfl⟩ : ∃ (p : Fin 4000) (q : Fin 128), j = ix2 p q := ⟨j 0, j 1, eq_ix2 j⟩
  refine (payload_at (iblk2 V c 0 t) (iblk2 V c 1 t) p q).trans ?_
  have h0 : iblk2 V c 0 t (ix2 p q) = V c main_v64 (((cfg2.win 2).blk t).view.emb (ix2 p q)) := by
    show V c main_v64 (((cfg2.win 0).blk t).view.emb (ix2 p q)) = _
    refine congrArg _ (funext fun a => Fin.ext ?_)
    match a with
    | ⟨0, _⟩ =>
      show win2_0.index t (0 : Fin 2) * 4000 + 1 * p.val = win2_2.index t (0 : Fin 2) * 4000 + 1 * p.val
      omega
    | ⟨1, _⟩ =>
      show win2_0.index t (1 : Fin 2) * 128 + 1 * q.val = win2_2.index t (1 : Fin 2) * 128 + 1 * q.val
      omega
  have h1 : iblk2 V c 1 t (ix2 p (0 : Fin 1))
      = V c main_v65 (ix2 ⟨(((cfg2.win 2).blk t).view.emb (ix2 p q) 0).val,
          idx2_lt0 (((cfg2.win 2).blk t).view.emb (ix2 p q))⟩ (0 : Fin 1)) := by
    show V c main_v65 (((cfg2.win 1).blk t).view.emb (ix2 p (0 : Fin 1))) = _
    refine congrArg _ (funext fun a => Fin.ext ?_)
    match a with
    | ⟨0, _⟩ =>
      show win2_1.index t (0 : Fin 2) * 4000 + 1 * p.val = win2_2.index t (0 : Fin 2) * 4000 + 1 * p.val
      omega
    | ⟨1, _⟩ =>
      show win2_1.index t (1 : Fin 2) * 1 + 1 * 0 = 0
      omega
  rw [h0, h1]
  rfl

/-- An index of the array lies in point `t`'s output block iff each coordinate lies in the block's range on its axis. -/
theorem mem_block (t : Fin cfg2.N) (i : S320000x128.Idx) :
    i ∈ ((cfg2.win 2).blk t).view.set ↔ ∀ a : Fin 2, win2_2.index t a * S4000x128.size a ≤ (i a).val
      ∧ (i a).val < win2_2.index t a * S4000x128.size a + S4000x128.size a := by
  show i ∈ ((View.whole main_v66).slice (win2_2.rect t)).set ↔ _
  rw [View.set_slice_whole, Rect.mem_set_unit]
  exact Iff.rfl

/-- The eighty row blocks fill the array: row `r` is in the block of point `r / 4000`. -/
theorem cover (i : S320000x128.Idx) :
    ∃ t : Fin cfg2.N, (cfg2.win 2).flush t = true ∧ i ∈ ((cfg2.win 2).blk t).view.set := by
  have hi0 : (i 0).val < 320000 := idx2_lt0 i
  have hi1 : (i 1).val < 128 := idx2_lt1 i
  have ht : (i 0).val / 4000 < cfg2.N := (by omega : (i 0).val / 4000 < 80).trans_eq N_2.symm
  obtain ⟨-, -, -, -, e20, e21⟩ := index_facts ⟨(i 0).val / 4000, ht⟩
  refine ⟨⟨(i 0).val / 4000, ht⟩, flush2_2 _, ?_⟩
  rw [mem_block]
  intro a
  match a with
  | ⟨0, _⟩ =>
    show win2_2.index ⟨(i 0).val / 4000, ht⟩ (0 : Fin 2) * 4000 ≤ (i 0).val
      ∧ (i 0).val < win2_2.index ⟨(i 0).val / 4000, ht⟩ (0 : Fin 2) * 4000 + 4000
    rw [e20]; show (i 0).val / 4000 * 4000 ≤ (i 0).val ∧ (i 0).val < (i 0).val / 4000 * 4000 + 4000; omega
  | ⟨1, _⟩ =>
    show win2_2.index ⟨(i 0).val / 4000, ht⟩ (1 : Fin 2) * 128 ≤ (i 1).val
      ∧ (i 1).val < win2_2.index ⟨(i 0).val / 4000, ht⟩ (1 : Fin 2) * 128 + 128
    rw [e21]; omega

/-- The weighting stage's output array after the region: every row of the features times its edge's coefficient. -/
theorem region2_array (c : Dev nD) :
    (dat2 (F := Ideal) V c).arrAt 2 cfg2.N = Cert.EdgeAttention.weighted (V c main_v64) (V c main_v65) :=
  (dat2 (F := Ideal) V c).arrAt_eq_of_cover 2 (Cert.EdgeAttention.weighted (V c main_v64) (V c main_v65))
    (fun t _ => flushed_eq V c t) cover

end Cert.KernelIdeal.Region2

end
-- ==== Proof.Region3.lean ====
/-
  The finishing stage read as one array. The stage walks the 10000×128 feature array in five blocks of 2000 rows; at
  each block it adds the one bias row to every row of the block and replaces negative entries by zero, and writes the block
  back to the same rows of the result. So entry `(r, q)` of the result is `max (x (r, q) + b (0, q), 0)`: it depends on
  the feature entry at the same place and on the bias entry in the same column, and on nothing else. The steps: one element
  of the stored block from the loaded blocks; where each window's block sits at a grid point; each loaded block's element
  as an element of its array; the block a point writes back as that point's rows of the whole-array function; the five
  blocks fill the array; hence the array after the stage is the whole-array function.
-/
import proofs.«105251_j66984309948497_1_alg».proof.Proof.Gen.KernelIdeal.Frame
import proofs.«105251_j66984309948497_1_alg».proof.Proof.Stages
import Idealize.ShloMosaic.Lib.Pipeline.Value
import Idealize.ShloMosaic.Lib.ValueLayout
import Idealize.ShloMosaic.Lib.ValueIdx

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The offsets of a load or store that starts at the buffer's corner. -/
theorem zero_offsets : (![0, 0] : Fin 2 → Nat) = fun _ => 0 := funext fun a => by fin_cases a <;> rfl

/-- One element of what the body stores, from the two blocks it loaded: the feature block's element at the same place
    plus the bias row's element in the same column (the single row is repeated down the 2000 rows), cut off below at zero. -/
theorem payload_at (x0 : Vec Ideal S2000x128 .f32) (x1 : Vec Ideal S1x128 .f32) (p : Fin 2000) (q : Fin 128) :
    k3_pay1 x0 x1 (ix2 p q) = max (x0 (ix2 p q) + x1 (ix2 (0 : Fin 1) q)) 0 := by
  unfold k3_pay1
  simp only [shapeCast_self]
  rw [maximumf_apply, addf_apply, broadcast_apply, broadcastTo_1b_ab_apply]
  rw [show (FloatOps.ofBits FTy.f32 0x00000000#32 : Ideal .f32) = 0 from Ideal.ofBits_zero_f32]

/-- Where the three windows' blocks sit at grid point `t`: the feature window and the output window are both at block row `t`
    (block column 0); the bias window never moves. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole-array function: rows `2000 t … 2000 t + 1999` of
    `max (x + b, 0)`. Element `(p, q)` of the block depends on `x (2000 t + p, q)` and `b (0, q)` only. -/
theorem flushed_eq (c : Dev nD) (t : Fin cfg3.N) :
    (dat3 (F := Ideal) V c).flushed 2 t
      = ((cfg3.win 2).blk t).view.read (Elt Ideal) (Cert.EdgeAttention.finish (V c main_v74) (V c main_v75)) := by
  show (cfg3.win 2).cut (grid3.coords t) ((dat3 V c).after 2 t) = _
  rw [after3_2]
  unfold out3_2
  rw [View.canon_unit_zero zero_offsets]
  simp only [View.ld_unit_zero (S := S2000x128) zero_offsets, View.ld_unit_zero (S := S1x128) zero_offsets]
  obtain ⟨e00, e01, e10, e11, e20, e21⟩ := index_facts t
  funext j
  obtain ⟨p, q, rfl⟩ : ∃ (p : Fin 2000) (q : Fin 128), j = ix2 p q := ⟨j 0, j 1, eq_ix2 j⟩
  refine (payload_at (iblk3 V c 0 t) (iblk3 V c 1 t) p q).trans ?_
  have h0 : iblk3 V c 0 t (ix2 p q) = V c main_v74 (((cfg3.win 2).blk t).view.emb (ix2 p q)) := by
    show V c main_v74 (((cfg3.win 0).blk t).view.emb (ix2 p q)) = _
    refine congrArg _ (funext fun a => Fin.ext ?_)
    match a with
    | ⟨0, _⟩ =>
      show win3_0.index t (0 : Fin 2) * 2000 + 1 * p.val = win3_2.index t (0 : Fin 2) * 2000 + 1 * p.val
      omega
    | ⟨1, _⟩ =>
      show win3_0.index t (1 : Fin 2) * 128 + 1 * q.val = win3_2.index t (1 : Fin 2) * 128 + 1 * q.val
      omega
  have h1 : iblk3 V c 1 t (ix2 (0 : Fin 1) q)
      = V c main_v75 (ix2 (0 : Fin 1) ⟨(((cfg3.win 2).blk t).view.emb (ix2 p q) 1).val,
          idx2_lt1 (((cfg3.win 2).blk t).view.emb (ix2 p q))⟩) := by
    show V c main_v75 (((cfg3.win 1).blk t).view.emb (ix2 (0 : Fin 1) q)) = _
    refine congrArg _ (funext fun a => Fin.ext ?_)
    match a with
    | ⟨0, _⟩ =>
      show win3_1.index t (0 : Fin 2) * 1 + 1 * 0 = 0
      omega
    | ⟨1, _⟩ =>
      show win3_1.index t (1 : Fin 2) * 128 + 1 * q.val = win3_2.index t (1 : Fin 2) * 128 + 1 * q.val
      omega
  rw [h0, h1]
  rfl

/-- An index of the array lies in point `t`'s output block iff each coordinate lies in the block's range on its axis. -/
theorem mem_block (t : Fin cfg3.N) (i : S10000x128.Idx) :
    i ∈ ((cfg3.win 2).blk t).view.set ↔ ∀ a : Fin 2, win3_2.index t a * S2000x128.size a ≤ (i a).val
      ∧ (i a).val < win3_2.index t a * S2000x128.size a + S2000x128.size a := by
  show i ∈ ((View.whole main_v76).slice (win3_2.rect t)).set ↔ _
  rw [View.set_slice_whole, Rect.mem_set_unit]
  exact Iff.rfl

/-- The five row blocks fill the array: row `r` is in the block of point `r / 2000`. -/
theorem cover (i : S10000x128.Idx) :
    ∃ t : Fin cfg3.N, (cfg3.win 2).flush t = true ∧ i ∈ ((cfg3.win 2).blk t).view.set := by
  have hi0 : (i 0).val < 10000 := idx2_lt0 i
  have hi1 : (i 1).val < 128 := idx2_lt1 i
  have ht : (i 0).val / 2000 < cfg3.N := (by omega : (i 0).val / 2000 < 5).trans_eq N_3.symm
  obtain ⟨-, -, -, -, e20, e21⟩ := index_facts ⟨(i 0).val / 2000, ht⟩
  refine ⟨⟨(i 0).val / 2000, ht⟩, flush3_2 _, ?_⟩
  rw [mem_block]
  intro a
  match a with
  | ⟨0, _⟩ =>
    show win3_2.index ⟨(i 0).val / 2000, ht⟩ (0 : Fin 2) * 2000 ≤ (i 0).val
      ∧ (i 0).val < win3_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win3_2.index ⟨(i 0).val / 2000, ht⟩ (1 : Fin 2) * 128 ≤ (i 1).val
      ∧ (i 1).val < win3_2.index ⟨(i 0).val / 2000, ht⟩ (1 : Fin 2) * 128 + 128
    rw [e21]; omega

/-- The finishing stage's output array after the region: `max (x + b, 0)` of the two arrays the region found. -/
theorem region3_array (c : Dev nD) :
    (dat3 (F := Ideal) V c).arrAt 2 cfg3.N = Cert.EdgeAttention.finish (V c main_v74) (V c main_v75) :=
  (dat3 (F := Ideal) V c).arrAt_eq_of_cover 2 (Cert.EdgeAttention.finish (V c main_v74) (V c main_v75))
    (fun t _ => flushed_eq V c t) cover

end Cert.KernelIdeal.Region3

end
-- ==== Proof.lean ====
/-
  The certificate of a graph-attention layer: node keys `x · w`, gathered at both endpoints of every edge; edge scores
  `exp (concat(k_src, k_dst) · a)`, normalised over the edges of each source node (a scatter-add and a gather), scattered into a
  dense node-by-node table and read back transposed; the destination keys weighted by that coefficient and summed into their
  source nodes; bias and `max (·, 0)`. The kernel's program computes the four dense stages in tiled regions — the keys and the
  scores on the matrix unit, row block by row block; the weighting and the finish elementwise — and everything between them with
  the same host operations as the plain jnp program. Over the extended reals the two programs agree: each tiled region's output
  array is one whole-array function of its operands (Region0 … Region3) which is the host computation of that stage (StageLaws:
  a product into a zero accumulator is the sum over the contracted coordinate on both sides, the exponential is one function,
  keeping endpoint 1 commutes with the pointwise product, a bias row spread down the rows is the bias at the column); every host
  operation between them is the same operation on equal operands (Boundaries). No law used needs finiteness. The three frames
  are the generated ones; nothing was rewritten by the idealization, so `preserves` is trivial.
-/
import proofs.«105251_j66984309948497_1_alg».proof.Defs
import proofs.«105251_j66984309948497_1_alg».proof.Proof.Gen.Kernel
import proofs.«105251_j66984309948497_1_alg».proof.Proof.Gen.Kernel.Frame
import proofs.«105251_j66984309948497_1_alg».proof.Proof.Gen.KernelIdeal
import proofs.«105251_j66984309948497_1_alg».proof.Proof.Gen.KernelIdeal.Frame
import proofs.«105251_j66984309948497_1_alg».proof.Proof.Gen.ReferenceIdeal
import proofs.«105251_j66984309948497_1_alg».proof.Proof.Gen.Pre_finite_inputs
import proofs.«105251_j66984309948497_1_alg».proof.Proof.Gen.ReferenceIdeal.Run
import proofs.«105251_j66984309948497_1_alg».proof.Proof.Gen.ReferenceIdeal.Read
import proofs.«105251_j66984309948497_1_alg».proof.Proof.KernelRun
import proofs.«105251_j66984309948497_1_alg».proof.Proof.Boundaries
import proofs.«105251_j66984309948497_1_alg».proof.Proof.Region0
import proofs.«105251_j66984309948497_1_alg».proof.Proof.Region1
import proofs.«105251_j66984309948497_1_alg».proof.Proof.Region2
import proofs.«105251_j66984309948497_1_alg».proof.Proof.Region3
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference has no kernel: its frame is its run with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both runs end with the result array at the reference's result stage of the (agreeing) argument arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.Read.val_main_v80 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Boundary.W10_v76 m ρ
          Cert.KernelIdeal.Region0.region0_array Cert.KernelIdeal.Region1.region1_array
          Cert.KernelIdeal.Region2.region2_array Cert.KernelIdeal.Region3.region3_array c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v80_eq, (hagree c).1, (hagree c).2.1, (hagree c).2.2.1, (hagree c).2.2.2.1,
      (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
